-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x1024x64 .f32) (main_arg1 : IVec S16x1024x1024 32) (main_arg2 : FVec F S4x64x64 .f32) (main_arg3 : FVec F S4x64x64 .f32) (main_arg4 : FVec F S128 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S4x64x64 .f32 := Host.absf main_arg2
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S16x64x1024 : Shape := ⟨3, ![16, 64, 1024]⟩
abbrev S16x1024x128 : Shape := ⟨3, ![16, 1024, 128]⟩
abbrev S1x1024x1024 : Shape := ⟨3, ![1, 1024, 1024]⟩
abbrev S1x64x1024 : Shape := ⟨3, ![1, 64, 1024]⟩
abbrev S1x1024x128 : Shape := ⟨3, ![1, 1024, 128]⟩
abbrev S64x1024 : Shape := ⟨2, ![64, 1024]⟩
abbrev S1024x1024 : Shape := ⟨2, ![1024, 1024]⟩
abbrev S1x64x64 : Shape := ⟨3, ![1, 64, 64]⟩
abbrev S64x64 : Shape := ⟨2, ![64, 64]⟩
abbrev S128x1024 : Shape := ⟨2, ![128, 1024]⟩
abbrev S1024x128 : Shape := ⟨2, ![1024, 128]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S4x64x64, .f32⟩
  | .hbm, ⟨3, _⟩ => ⟨S4x64x64, .f32⟩
  | .hbm, ⟨4, _⟩ => ⟨S128, .f32⟩
  | .hbm, ⟨5, _⟩ => ⟨S16x64x1024, .f32⟩
  | .hbm, ⟨6, _⟩ => ⟨S16x1024x128, .f32⟩
  | .local _ .vmem, ⟨0, _⟩ => ⟨S1x1024x1024, .i32⟩
  | .local _ .vmem, ⟨1, _⟩ => ⟨S1x1024x1024, .i32⟩
  | .local _ .vmem, ⟨2, _⟩ => ⟨S1x64x1024, .f32⟩
  | .local _ .vmem, ⟨3, _⟩ => ⟨S1x64x1024, .f32⟩
  | .local _ .vmem, ⟨4, _⟩ => ⟨S4x64x64, .f32⟩
  | .local _ .vmem, ⟨5, _⟩ => ⟨S4x64x64, .f32⟩
  | .local _ .vmem, ⟨6, _⟩ => ⟨S128, .f32⟩
  | .local _ .vmem, ⟨7, _⟩ => ⟨S1x1024x128, .f32⟩
  | .local _ .vmem, ⟨8, _⟩ => ⟨S1x1024x128, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16x1024x64_S16x64x1024_0_2_1 : S16x1024x64.Transposes [0, 2, 1] S16x64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  natLt_1_32 : 1 < 32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64x64_S1x64x64_1_0_0 : ∀ a, (![1, 0, 0] : Fin 3 → Nat) a + S1x64x64.size a ≤ S4x64x64.size a
  inb_S4x64x64_S1x64x64_2_0_0 : ∀ a, (![2, 0, 0] : Fin 3 → Nat) a + S1x64x64.size a ≤ S4x64x64.size a
  inb_S4x64x64_S1x64x64_3_0_0 : ∀ a, (![3, 0, 0] : Fin 3 → Nat) a + S1x64x64.size a ≤ S4x64x64.size a
  concatenates_S64x1024_S64x1024_S128x1024_d0 : Shape.Concatenates [S64x1024, S64x1024] S128x1024 0
  transposes_S128x1024_p1_0_S1024x128 : S128x1024.Transposes [1, 0] S1024x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S64x1024_S1024x1024_S64x1024_1_0_0_1_n_n_wf : DotDims.WF S64x1024 S1024x1024 S64x1024 [1] [0] [0] [1] [] []
  dot_S64x1024_S1024x1024_S64x1024_1_1_0_0_n_n_wf : DotDims.WF S64x1024 S1024x1024 S64x1024 [1] [1] [0] [0] [] []
  dot_S64x64_S64x1024_S64x1024_1_0_0_1_n_n_wf : DotDims.WF S64x64 S64x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .i32 = 32 ∨ (Rect.block (s := S16x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S16x64x1024.size a
  hwx0_1 : ∀ i : grid0.Coords, EltTy.bits .f32 = 32 ∨ (Rect.block (s := S16x64x1024) S1x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64x64.size a ≤ S4x64x64.size a
  hwx0_3 : ∀ i : grid0.Coords, EltTy.bits .f32 = 32 ∨ (Rect.block (s := S4x64x64) S4x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S16x1024x128.size a
  hwx0_5 : ∀ i : grid0.Coords, EltTy.bits .f32 = 32 ∨ (Rect.block (s := S16x1024x128) S1x1024x128.size (cc0_transform_5 i) (hinb0_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S64x64_S64x1024_S64x1024_1_0_0_1_n_n : DotDims S64x64 S64x1024 S64x1024 where
  lhsContracting := [1]
  rhsContracting := [0]
  lhsNonContracting := [0]
  rhsNonContracting := [1]
  lhsBatch := []
  rhsBatch := []
  wf := dot_S64x64_S64x1024_S64x1024_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1024x1024 : Shape := ⟨3, ![16, 1024, 1024]⟩
abbrev S4x64x64 : Shape := ⟨3, ![4, 64, 64]⟩
abbrev S128 : Shape := ⟨1, ![128]⟩
abbrev S_ : Shape := ⟨0, ![]⟩
abbrev S1x64x64 : Shape := ⟨3, ![1, 64, 64]⟩
abbrev S64x64 : Shape := ⟨2, ![64, 64]⟩
abbrev S16x1024x128 : Shape := ⟨3, ![16, 1024, 128]⟩
abbrev S1x1x128 : Shape := ⟨3, ![1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S4x64x64, .f32⟩
  | .hbm, ⟨3, _⟩ => ⟨S4x64x64, .f32⟩
  | .hbm, ⟨4, _⟩ => ⟨S128, .f32⟩
  | .hbm, ⟨5, _⟩ => ⟨S_, .f32⟩
  | .hbm, ⟨6, _⟩ => ⟨S16x1024x64, .f32⟩
  | .hbm, ⟨7, _⟩ => ⟨S_, .i32⟩
  | .hbm, ⟨8, _⟩ => ⟨S16x1024x1024, .i32⟩
  | .hbm, ⟨9, _⟩ => ⟨S16x1024x1024, .i1⟩
  | .hbm, ⟨10, _⟩ => ⟨S16x1024x1024, .f32⟩
  | .hbm, ⟨11, _⟩ => ⟨S16x1024x64, .f32⟩
  | .hbm, ⟨12, _⟩ => ⟨S1x64x64, .f32⟩
  | .hbm, ⟨13, _⟩ => ⟨S64x64, .f32⟩
  | .hbm, ⟨14, _⟩ => ⟨S16x1024x64, .f32⟩
  | .hbm, ⟨15, _⟩ => ⟨S16x1024x64, .f32⟩
  | .hbm, ⟨16, _⟩ => ⟨S_, .i32⟩
  | .hbm, ⟨17, _⟩ => ⟨S16x1024x1024, .i32⟩
  | .hbm, ⟨18, _⟩ => ⟨S16x1024x1024, .i1⟩
  | .hbm, ⟨19, _⟩ => ⟨S16x1024x1024, .f32⟩
  | .hbm, ⟨20, _⟩ => ⟨S16x1024x64, .f32⟩
  | .hbm, ⟨21, _⟩ => ⟨S1x64x64, .f32⟩
  | .hbm, ⟨22, _⟩ => ⟨S64x64, .f32⟩
  | .hbm, ⟨23, _⟩ => ⟨S16x1024x64, .f32⟩
  | .hbm, ⟨24, _⟩ => ⟨S16x1024x64, .f32⟩
  | .hbm, ⟨25, _⟩ => ⟨S_, .i32⟩
  | .hbm, ⟨26, _⟩ => ⟨S16x1024x1024, .i32⟩
  | .hbm, ⟨27, _⟩ => ⟨S16x1024x1024, .i1⟩
  | .hbm, ⟨28, _⟩ => ⟨S16x1024x1024, .f32⟩
  | .hbm, ⟨29, _⟩ => ⟨S16x1024x64, .f32⟩
  | .hbm, ⟨30, _⟩ => ⟨S1x64x64, .f32⟩
  | .hbm, ⟨31, _⟩ => ⟨S64x64, .f32⟩
  | .hbm, ⟨32, _⟩ => ⟨S16x1024x64, .f32⟩
  | .hbm, ⟨33, _⟩ => ⟨S16x1024x64, .f32⟩
  | .hbm, ⟨34, _⟩ => ⟨S_, .i32⟩
  | .hbm, ⟨35, _⟩ => ⟨S16x1024x1024, .i32⟩
  | .hbm, ⟨36, _⟩ => ⟨S16x1024x1024, .i1⟩
  | .hbm, ⟨37, _⟩ => ⟨S16x1024x1024, .f32⟩
  | .hbm, ⟨38, _⟩ => ⟨S16x1024x64, .f32⟩
  | .hbm, ⟨39, _⟩ => ⟨S1x64x64, .f32⟩
  | .hbm, ⟨40, _⟩ => ⟨S64x64, .f32⟩
  | .hbm, ⟨41, _⟩ => ⟨S16x1024x64, .f32⟩
  | .hbm, ⟨42, _⟩ => ⟨S16x1024x64, .f32⟩
  | .hbm, ⟨43, _⟩ => ⟨S16x1024x1024, .i32⟩
  | .hbm, ⟨44, _⟩ => ⟨S_, .f32⟩
  | .hbm, ⟨45, _⟩ => ⟨S16x1024x64, .f32⟩
  | .hbm, ⟨46, _⟩ => ⟨S_, .i32⟩
  | .hbm, ⟨47, _⟩ => ⟨S16x1024x1024, .i32⟩
  | .hbm, ⟨48, _⟩ => ⟨S16x1024x1024, .i1⟩
  | .hbm, ⟨49, _⟩ => ⟨S16x1024x1024, .f32⟩
  | .hbm, ⟨50, _⟩ => ⟨S16x1024x64, .f32⟩
  | .hbm, ⟨51, _⟩ => ⟨S1x64x64, .f32⟩
  | .hbm, ⟨52, _⟩ => ⟨S64x64, .f32⟩
  | .hbm, ⟨53, _⟩ => ⟨S16x1024x64, .f32⟩
  | .hbm, ⟨54, _⟩ => ⟨S16x1024x64, .f32⟩
  | .hbm, ⟨55, _⟩ => ⟨S_, .i32⟩
  | .hbm, ⟨56, _⟩ => ⟨S16x1024x1024, .i32⟩
  | .hbm, ⟨57, _⟩ => ⟨S16x1024x1024, .i1⟩
  | .hbm, ⟨58, _⟩ => ⟨S16x1024x1024, .f32⟩
  | .hbm, ⟨59, _⟩ => ⟨S16x1024x64, .f32⟩
  | .hbm, ⟨60, _⟩ => ⟨S1x64x64, .f32⟩
  | .hbm, ⟨61, _⟩ => ⟨S64x64, .f32⟩
  | .hbm, ⟨62, _⟩ => ⟨S16x1024x64, .f32⟩
  | .hbm, ⟨63, _⟩ => ⟨S16x1024x64, .f32⟩
  | .hbm, ⟨64, _⟩ => ⟨S_, .i32⟩
  | .hbm, ⟨65, _⟩ => ⟨S16x1024x1024, .i32⟩
  | .hbm, ⟨66, _⟩ => ⟨S16x1024x1024, .i1⟩
  | .hbm, ⟨67, _⟩ => ⟨S16x1024x1024, .f32⟩
  | .hbm, ⟨68, _⟩ => ⟨S16x1024x64, .f32⟩
  | .hbm, ⟨69, _⟩ => ⟨S1x64x64, .f32⟩
  | .hbm, ⟨70, _⟩ => ⟨S64x64, .f32⟩
  | .hbm, ⟨71, _⟩ => ⟨S16x1024x64, .f32⟩
  | .hbm, ⟨72, _⟩ => ⟨S16x1024x64, .f32⟩
  | .hbm, ⟨73, _⟩ => ⟨S_, .i32⟩
  | .hbm, ⟨74, _⟩ => ⟨S16x1024x1024, .i32⟩
  | .hbm, ⟨75, _⟩ => ⟨S16x1024x1024, .i1⟩
  | .hbm, ⟨76, _⟩ => ⟨S16x1024x1024, .f32⟩
  | .hbm, ⟨77, _⟩ => ⟨S16x1024x64, .f32⟩
  | .hbm, ⟨78, _⟩ => ⟨S1x64x64, .f32⟩
  | .hbm, ⟨79, _⟩ => ⟨S64x64, .f32⟩
  | .hbm, ⟨80, _⟩ => ⟨S16x1024x64, .f32⟩
  | .hbm, ⟨81, _⟩ => ⟨S16x1024x64, .f32⟩
  | .hbm, ⟨82, _⟩ => ⟨S16x1024x128, .f32⟩
  | .hbm, ⟨83, _⟩ => ⟨S1x1x128, .f32⟩
  | .hbm, ⟨84, _⟩ => ⟨S16x1024x128, .f32⟩
  | .hbm, ⟨85, _⟩ => ⟨S16x1024x128, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_c_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]

class Facts₀ : Prop where
  bcast_S_S16x1024x64 : S_.BroadcastsInDim S16x1024x64 (![] : Fin 0 → Fin S16x1024x64.rank)
  bcast_S_S16x1024x1024 : S_.BroadcastsInDim S16x1024x1024 (![] : Fin 0 → Fin S16x1024x1024.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  transposes_S16x1024x1024_S16x1024x1024_0_2_1 : S16x1024x1024.Transposes [0, 2, 1] S16x1024x1024
  concatenates_S16x1024x64_S16x1024x64_S16x1024x128_d2 : Shape.Concatenates [S16x1024x64, S16x1024x64] S16x1024x128 2
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  dot_S16x1024x1024_S16x1024x64_S16x1024x64_2_1_1_2_0_0_wf : DotDims.WF S16x1024x1024 S16x1024x64 S16x1024x64 [2] [1] [1] [2] [0] [0]
  dot_S16x1024x64_S64x64_S16x1024x64_2_1_01_0_n_n_wf : DotDims.WF S16x1024x64 S64x64 S16x1024x64 [2] [1] [0, 1] [0] [] []

variable [Facts₀]

def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf
def dot_S16x1024x64_S64x64_S16x1024x64_2_1_01_0_n_n : DotDims S16x1024x64 S64x64 S16x1024x64 where
  lhsContracting := [2]
  rhsContracting := [1]
  lhsNonContracting := [0, 1]
  rhsNonContracting := [0]
  lhsBatch := []
  rhsBatch := []
  wf := dot_S16x1024x64_S64x64_S16x1024x64_2_1_01_0_n_n_wf

class Facts : Prop extends Facts₀ where

variable [Facts]
-- ==== Proof.Spec.lean ====
/-
  Messages along typed edges of a batch of graphs, as one function of the argument arrays.

  A graph of the batch has 1024 nodes with a 64-entry feature row each, and a square table of edge labels: label `c + 1`
  (`c = 0 … 3`) at `(i, j)` says "an edge of class `c` joins `i` and `j`", any other label says "none". For a node,
  reading its labels along a line `row` of the table, the class-`c` AGGREGATE is the sum of the feature rows of the nodes
  `j` with `row j = c + 1`; the class's MESSAGE applies that class's 64×64 weight matrix to the aggregate; the node's
  message is the sum of the four classes' messages, accumulated in the order of the classes. The result row of a node
  holds, in its first 64 entries, the message read along the node's ROW of the label table with the incoming weights,
  and in its last 64 the message read along the node's COLUMN with the outgoing weights, plus a bias entry by entry.

  Everything is on the extended reals: only sums and products occur, and the order of the two factors of a product or
  the grouping of the terms of a finite sum is immaterial there, so no finiteness of the features is used.
-/
import Idealize.ShloMosaic.PureOps.Ideal
import Idealize.ShloMosaic.Lib.ValueIdx

noncomputable section

open scoped BigOperators

namespace Cert.EdgeMessages

open Idealize.ShloMosaic Idealize.ShloMosaic.ValueIdx

/-- `1` when the edge label `a` is the class label `c`, else `0`: the one-bit comparison read as a number. -/
def ind (a c : BitVec 32) : EReal := (((IntOp.cmpi .eq a c).toNat : ℝ) : EReal)

/-- The class aggregate at feature `e`: the sum over the nodes `j` of the indicator of `row j = cls` times `feat j e`. -/
def agg (feat : Fin 1024 → Fin 64 → EReal) (row : Fin 1024 → BitVec 32) (cls : BitVec 32) (e : Fin 64) : EReal :=
  ∑ j : Fin 1024, ind (row j) cls * feat j e

/-- One class's message at output feature `d`: the weight matrix `W` applied to the class aggregate. -/
def term (feat : Fin 1024 → Fin 64 → EReal) (row : Fin 1024 → BitVec 32) (W : Fin 64 → Fin 64 → EReal) (cls : BitVec 32)
    (d : Fin 64) : EReal :=
  ∑ e : Fin 64, agg feat row cls e * W d e

/-- A node's message at output feature `d`: the four classes' messages, added in the order of the classes. -/
def msg (feat : Fin 1024 → Fin 64 → EReal) (row : Fin 1024 → BitVec 32) (W : Fin 4 → Fin 64 → Fin 64 → EReal) (d : Fin 64) :
    EReal :=
  term feat row (W 0) 1#32 d + term feat row (W 1) 2#32 d + term feat row (W 2) 3#32 d + term feat row (W 3) 4#32 d

/-- A node's result row at entry `k`: the message along its row of labels (entries below 64), or along its column
    (entries from 64 on), plus the bias. -/
def out (feat : Fin 1024 → Fin 64 → EReal) (rowIn rowOut : Fin 1024 → BitVec 32) (Win Wout : Fin 4 → Fin 64 → Fin 64 → EReal)
    (bias : Fin 128 → EReal) (k : Fin 128) : EReal :=
  (if h : k.val < 64 then msg feat rowIn Win ⟨k.val, h⟩
    else msg feat rowOut Wout ⟨k.val - 64, by have := k.isLt; omega⟩) + bias k

/-- The whole result array `[16, 1024, 128]` as one function of the five argument arrays, index by index. -/
def G (feat : (⟨3, ![16, 1024, 64]⟩ : Shape).Idx → EReal) (adj : (⟨3, ![16, 1024, 1024]⟩ : Shape).Idx → BitVec 32)
    (Win Wout : (⟨3, ![4, 64, 64]⟩ : Shape).Idx → EReal) (bias : (⟨1, ![128]⟩ : Shape).Idx → EReal) :
    (⟨3, ![16, 1024, 128]⟩ : Shape).Idx → EReal := fun i =>
  out (fun j e => feat (ix3 (i 0) j e)) (fun j => adj (ix3 (i 0) (i 1) j)) (fun j => adj (ix3 (i 0) j (i 1)))
    (fun c d e => Win (ix3 c d e)) (fun c d e => Wout (ix3 c d e)) (fun k => bias (ix1 k)) (i 2)

/-- `G` at an index written by coordinates. -/
theorem G_apply (feat : (⟨3, ![16, 1024, 64]⟩ : Shape).Idx → EReal) (adj : (⟨3, ![16, 1024, 1024]⟩ : Shape).Idx → BitVec 32)
    (Win Wout : (⟨3, ![4, 64, 64]⟩ : Shape).Idx → EReal) (bias : (⟨1, ![128]⟩ : Shape).Idx → EReal)
    (b : Fin 16) (n : Fin 1024) (k : Fin 128) :
    G feat adj Win Wout bias (ix3 b n k)
      = out (fun j e => feat (ix3 b j e)) (fun j => adj (ix3 b n j)) (fun j => adj (ix3 b j n))
          (fun c d e => Win (ix3 c d e)) (fun c d e => Wout (ix3 c d e)) (fun k => bias (ix1 k)) k := rfl

/-- The two ways a one-bit comparison is read as a number agree: zero-extended to a word and read signed, or read
    unsigned as it is. -/
theorem toInt_setWidth_bit (x : BitVec 1) : (x.setWidth 32).toInt = (x.toNat : ℤ) := by
  revert x; decide

/-- The first class's message added to a zero accumulator is the message. -/
theorem zero_add_term (x : EReal) : (0 : EReal) + x = x := zero_add x

end Cert.EdgeMessages

end
-- ==== Proof.LibLayoutRead.lean ====
/-
  Three host and vector layout operations on rank-three arrays, read at an index given by its coordinates.

  * `pad_trailing3_apply`: a pad with no low and no interior padding reads, at (p, q, r), the operand
    at (p, q, r) when the three coordinates are inside the operand's extents, and the padding value otherwise.
  * `reverse_axis0_apply`: a reversal along the first axis reads, at (p, q, r), the operand at
    (n₀ − 1 − p, q, r).
  * `concat_axis2_apply` / `concat_axis1_apply`: a two-piece concatenation along the last (the middle) axis
    reads the first piece where that coordinate is below the first piece's extent, and the second piece, the
    coordinate moved back by that extent, from there on.
-/
import Idealize.ShloMosaic.Lib.ValueIdx
import Idealize.ShloMosaic.Lib.Pipeline.Value
import Idealize.ShloMosaic.Lib.KernelVsHost

noncomputable section

namespace Idealize.ShloMosaic.LayoutRead3

open Idealize.ShloMosaic Idealize.ShloMosaic.ValueIdx

variable {α : Type}

/-- A pad that only appends (no low padding, no interior padding), read at the index (p, q, r): the operand there if
    all three coordinates are inside the operand, the padding value if not. -/
theorem pad_trailing3_apply {n0 n1 n2 m0 m1 m2 : ℕ} (hi : Fin 3 → ℕ) (x : (⟨3, ![n0, n1, n2]⟩ : Shape).Idx → α)
    {u : Shape} (v : u.Idx → α)
    (h : (⟨3, ![n0, n1, n2]⟩ : Shape).Pads (![0, 0, 0] : Fin 3 → ℕ) hi (![0, 0, 0] : Fin 3 → ℕ) ⟨3, ![m0, m1, m2]⟩)
    (hu : 0 < u.numel) (p : Fin m0) (q : Fin m1) (r : Fin m2) :
    pad (⟨3, ![m0, m1, m2]⟩ : Shape) (![0, 0, 0] : Fin 3 → ℕ) hi (![0, 0, 0] : Fin 3 → ℕ) x v h hu (ix3 p q r)
      = if hin : p.val < n0 ∧ q.val < n1 ∧ r.val < n2 then x (ix3 ⟨p.val, hin.1⟩ ⟨q.val, hin.2.1⟩ ⟨r.val, hin.2.2⟩)
        else v (Shape.Idx.first hu) := by
  by_cases hin : p.val < n0 ∧ q.val < n1 ∧ r.val < n2
  · rw [dif_pos hin]
    refine pad_apply_of_inside _ _ _ x v h hu (ix3 p q r) _ (fun a => ?_)
    match a with
    | ⟨0, _⟩ => show p.val = 0 + p.val * (0 + 1); omega
    | ⟨1, _⟩ => show q.val = 0 + q.val * (0 + 1); omega
    | ⟨2, _⟩ => show r.val = 0 + r.val * (0 + 1); omega
  · rw [dif_neg hin]
    by_cases h0 : p.val < n0
    · by_cases h1 : q.val < n1
      · have h2 : ¬ r.val < n2 := fun h2 => hin ⟨h0, h1, h2⟩
        refine pad_apply_of_not_inside _ _ _ x v h hu (ix3 p q r) ⟨2, by show 2 < 3; omega⟩ (fun hc => h2 ?_)
        have := hc.2.2
        change (r.val - 0) / (0 + 1) < n2 at this
        simpa using this
      · refine pad_apply_of_not_inside _ _ _ x v h hu (ix3 p q r) ⟨1, by show 1 < 3; omega⟩ (fun hc => h1 ?_)
        have := hc.2.2
        change (q.val - 0) / (0 + 1) < n1 at this
        simpa using this
    · refine pad_apply_of_not_inside _ _ _ x v h hu (ix3 p q r) ⟨0, by show 0 < 3; omega⟩ (fun hc => h0 ?_)
      have := hc.2.2
      change (p.val - 0) / (0 + 1) < n0 at this
      simpa using this

/-- A reversal along the first axis, read at (p, q, r), is the operand at the mirrored first coordinate. -/
theorem reverse_axis0_apply {n0 n1 n2 : ℕ} (x : (⟨3, ![n0, n1, n2]⟩ : Shape).Idx → α) (p : Fin n0) (q : Fin n1) (r : Fin n2) :
    Host.reverse (s := (⟨3, ![n0, n1, n2]⟩ : Shape)) [(0 : Fin 3)] x (ix3 p q r) = x (ix3 p.rev q r) := by
  unfold Host.reverse
  refine congrArg x (funext fun a => ?_)
  match a with
  | ⟨0, _⟩ => rfl
  | ⟨1, _⟩ => rfl
  | ⟨2, _⟩ => rfl

/-- Two pieces laid side by side along the LAST axis, read at (p, q, r): the first piece while `r` is below its
    extent `a2`, the second piece at `r - a2` from there on. -/
theorem concat_axis2_apply {n0 n1 a2 b2 c2 : ℕ} (x₁ : (⟨3, ![n0, n1, a2]⟩ : Shape).Idx → α)
    (x₂ : (⟨3, ![n0, n1, b2]⟩ : Shape).Idx → α) (hc : a2 + b2 = c2)
    (h : Shape.Concatenates [(⟨3, ![n0, n1, a2]⟩ : Shape), ⟨3, ![n0, n1, b2]⟩] ⟨3, ![n0, n1, c2]⟩ (2 : Fin 3))
    (p : Fin n0) (q : Fin n1) (r : Fin c2) :
    concatenate (⟨3, ![n0, n1, c2]⟩ : Shape) (2 : Fin 3) [⟨⟨3, ![n0, n1, a2]⟩, x₁⟩, ⟨⟨3, ![n0, n1, b2]⟩, x₂⟩] h (ix3 p q r)
      = if hr : r.val < a2 then x₁ (ix3 p q ⟨r.val, hr⟩)
        else x₂ (ix3 p q ⟨r.val - a2, by have := r.isLt; omega⟩) := by
  by_cases hr : r.val < a2
  · rw [dif_pos hr]
    refine concatenate_pair_apply_left (2 : Fin 3) x₁ x₂ h (ix3 p q r) rfl _ (fun b => ?_)
    match b with
    | ⟨0, _⟩ => rfl
    | ⟨1, _⟩ => rfl
    | ⟨2, _⟩ => rfl
  · rw [dif_neg hr]
    refine concatenate_pair_apply_right (2 : Fin 3) x₁ x₂ h (ix3 p q r) rfl rfl _ (fun b hb => ?_) ?_
    · match b with
      | ⟨0, _⟩ => rfl
      | ⟨1, _⟩ => rfl
      | ⟨2, _⟩ => exact absurd rfl hb
    · show r.val - a2 + a2 = r.val
      omega

/-- Two pieces stacked along the MIDDLE axis, read at (p, q, r): the first piece while `q` is below its extent
    `a1`, the second piece at `q - a1` from there on. -/
theorem concat_axis1_apply {n0 a1 b1 c1 n2 : ℕ} (x₁ : (⟨3, ![n0, a1, n2]⟩ : Shape).Idx → α)
    (x₂ : (⟨3, ![n0, b1, n2]⟩ : Shape).Idx → α) (hc : a1 + b1 = c1)
    (h : Shape.Concatenates [(⟨3, ![n0, a1, n2]⟩ : Shape), ⟨3, ![n0, b1, n2]⟩] ⟨3, ![n0, c1, n2]⟩ (1 : Fin 3))
    (p : Fin n0) (q : Fin c1) (r : Fin n2) :
    concatenate (⟨3, ![n0, c1, n2]⟩ : Shape) (1 : Fin 3) [⟨⟨3, ![n0, a1, n2]⟩, x₁⟩, ⟨⟨3, ![n0, b1, n2]⟩, x₂⟩] h (ix3 p q r)
      = if hq : q.val < a1 then x₁ (ix3 p ⟨q.val, hq⟩ r)
        else x₂ (ix3 p ⟨q.val - a1, by have := q.isLt; omega⟩ r) := by
  by_cases hq : q.val < a1
  · rw [dif_pos hq]
    refine concatenate_pair_apply_left (1 : Fin 3) x₁ x₂ h (ix3 p q r) rfl _ (fun b => ?_)
    match b with
    | ⟨0, _⟩ => rfl
    | ⟨1, _⟩ => rfl
    | ⟨2, _⟩ => rfl
  · rw [dif_neg hq]
    refine concatenate_pair_apply_right (1 : Fin 3) x₁ x₂ h (ix3 p q r) rfl rfl _ (fun b hb => ?_) ?_
    · match b with
      | ⟨0, _⟩ => rfl
      | ⟨1, _⟩ => exact absurd rfl hb
      | ⟨2, _⟩ => rfl
    · show q.val - a1 + a1 = q.val
      omega

end Idealize.ShloMosaic.LayoutRead3

end
-- ==== Proof.RefValue.lean ====
/-
  The reference program's last stage, read index by index, is the specification function of the edge messages.

  The reference computes, for each of the four edge classes, the indicator of "the label equals the class label" as a
  number, contracts it with the node features over the neighbour index (the class aggregate), and contracts the
  aggregate with the class's weight matrix (the class message); it adds the four messages to a zero array in the order
  of the classes. It does this once with the label table as given and the incoming weights, once with the table
  transposed and the outgoing weights, lays the two results side by side along the last axis and adds the bias.
  Each step below reads one of these operations at an index written by its coordinates.
-/
import proofs.«114339_j73323681677623_2_alg».proof.Proof.Gen.ReferenceIdeal.Read
import proofs.«114339_j73323681677623_2_alg».proof.Proof.Spec
import proofs.«114339_j73323681677623_2_alg».proof.Proof.LibLayoutRead

noncomputable section

namespace Cert.ReferenceIdeal.RefValue

open Cert.ReferenceIdeal Cert.ReferenceIdeal.Gen Cert.ReferenceIdeal.Read Idealize.ShloMosaic Idealize.ShloMosaic.ValueIdx Cert.EdgeMessages

/-- The feature array's contents. -/
abbrev Feat := (⟨S16x1024x64, .f32⟩ : BufTy).Contents (Elt Ideal)
/-- The label table's contents. -/
abbrev Adj := (⟨S16x1024x1024, .i32⟩ : BufTy).Contents (Elt Ideal)
/-- A stack of four weight matrices. -/
abbrev Wts := (⟨S4x64x64, .f32⟩ : BufTy).Contents (Elt Ideal)

/-- Class 1 aggregate, labels read along the node's row: the first contraction at (b, n, e). -/
theorem v4_eq (x0 : Feat) (x1 : Adj) (b : Fin 16) (n : Fin 1024) (e : Fin 64) :
    val_main_v4 (F := Ideal) x0 x1 (ix3 b n e)
      = agg (fun j e => x0 (ix3 b j e)) (fun j => x1 (ix3 b n j)) 1#32 e := by
  rw [val_main_v4_apply]
  unfold agg
  refine Finset.sum_congr rfl fun j _ => ?_
  have hl : lidx_main_v4 (ix3 b n e) j = ix3 b n j := funext fun a => by
    match a with
    | ⟨0, _⟩ => rfl
    | ⟨1, _⟩ => rfl
    | ⟨2, _⟩ => rfl
  have hr : ridx_main_v4 (ix3 b n e) j = ix3 b j e := funext fun a => by
    match a with
    | ⟨0, _⟩ => rfl
    | ⟨1, _⟩ => rfl
    | ⟨2, _⟩ => rfl
  rw [hl, hr, val_main_v3_apply, val_main_v2_apply, val_main_v1_apply, val_main_c_apply]
  rfl

/-- Class 1 weight matrix: slice 0 of the stack, reshaped to a matrix, at (d, e). -/
theorem v6_eq (x2 : Wts) (d e : Fin 64) :
    val_main_v6 (F := Ideal) x2 (ix2 d e) = x2 (ix3 0 d e) := by
  rw [val_main_v6_apply, val_main_v5_apply]
  refine congrArg x2 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 1 message along the row: the second contraction at (b, n, d). -/
theorem v7_eq (x0 : Feat) (x1 : Adj) (x2 : Wts) (b : Fin 16) (n : Fin 1024) (d : Fin 64) :
    val_main_v7 (F := Ideal) x0 x1 x2 (ix3 b n d)
      = term (fun j e => x0 (ix3 b j e)) (fun j => x1 (ix3 b n j)) (fun d e => x2 (ix3 0 d e)) 1#32 d := by
  rw [val_main_v7_apply]
  unfold term
  refine Finset.sum_congr rfl fun e _ => ?_
  have hl : lidx_main_v7 (ix3 b n d) e = ix3 b n e := funext fun a => by
    match a with
    | ⟨0, _⟩ => rfl
    | ⟨1, _⟩ => rfl
    | ⟨2, _⟩ => rfl
  have hr : ridx_main_v7 (ix3 b n d) e = ix2 d e := funext fun a => by
    match a with
    | ⟨0, _⟩ => rfl
    | ⟨1, _⟩ => rfl
  rw [hl, hr, v4_eq, v6_eq]

/-- Class 2 aggregate, labels read along the node's row: the first contraction at (b, n, e). -/
theorem v12_eq (x0 : Feat) (x1 : Adj) (b : Fin 16) (n : Fin 1024) (e : Fin 64) :
    val_main_v12 (F := Ideal) x0 x1 (ix3 b n e)
      = agg (fun j e => x0 (ix3 b j e)) (fun j => x1 (ix3 b n j)) 2#32 e := by
  rw [val_main_v12_apply]
  unfold agg
  refine Finset.sum_congr rfl fun j _ => ?_
  have hl : lidx_main_v12 (ix3 b n e) j = ix3 b n j := funext fun a => by
    match a with
    | ⟨0, _⟩ => rfl
    | ⟨1, _⟩ => rfl
    | ⟨2, _⟩ => rfl
  have hr : ridx_main_v12 (ix3 b n e) j = ix3 b j e := funext fun a => by
    match a with
    | ⟨0, _⟩ => rfl
    | ⟨1, _⟩ => rfl
    | ⟨2, _⟩ => rfl
  rw [hl, hr, val_main_v11_apply, val_main_v10_apply, val_main_v9_apply, val_main_c_0_apply]
  rfl

/-- Class 2 weight matrix: slice 1 of the stack, reshaped to a matrix, at (d, e). -/
theorem v14_eq (x2 : Wts) (d e : Fin 64) :
    val_main_v14 (F := Ideal) x2 (ix2 d e) = x2 (ix3 1 d e) := by
  rw [val_main_v14_apply, val_main_v13_apply]
  refine congrArg x2 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 2 message along the row: the second contraction at (b, n, d). -/
theorem v15_eq (x0 : Feat) (x1 : Adj) (x2 : Wts) (b : Fin 16) (n : Fin 1024) (d : Fin 64) :
    val_main_v15 (F := Ideal) x0 x1 x2 (ix3 b n d)
      = term (fun j e => x0 (ix3 b j e)) (fun j => x1 (ix3 b n j)) (fun d e => x2 (ix3 1 d e)) 2#32 d := by
  rw [val_main_v15_apply]
  unfold term
  refine Finset.sum_congr rfl fun e _ => ?_
  have hl : lidx_main_v15 (ix3 b n d) e = ix3 b n e := funext fun a => by
    match a with
    | ⟨0, _⟩ => rfl
    | ⟨1, _⟩ => rfl
    | ⟨2, _⟩ => rfl
  have hr : ridx_main_v15 (ix3 b n d) e = ix2 d e := funext fun a => by
    match a with
    | ⟨0, _⟩ => rfl
    | ⟨1, _⟩ => rfl
  rw [hl, hr, v12_eq, v14_eq]

/-- Class 3 aggregate, labels read along the node's row: the first contraction at (b, n, e). -/
theorem v20_eq (x0 : Feat) (x1 : Adj) (b : Fin 16) (n : Fin 1024) (e : Fin 64) :
    val_main_v20 (F := Ideal) x0 x1 (ix3 b n e)
      = agg (fun j e => x0 (ix3 b j e)) (fun j => x1 (ix3 b n j)) 3#32 e := by
  rw [val_main_v20_apply]
  unfold agg
  refine Finset.sum_congr rfl fun j _ => ?_
  have hl : lidx_main_v20 (ix3 b n e) j = ix3 b n j := funext fun a => by
    match a with
    | ⟨0, _⟩ => rfl
    | ⟨1, _⟩ => rfl
    | ⟨2, _⟩ => rfl
  have hr : ridx_main_v20 (ix3 b n e) j = ix3 b j e := funext fun a => by
    match a with
    | ⟨0, _⟩ => rfl
    | ⟨1, _⟩ => rfl
    | ⟨2, _⟩ => rfl
  rw [hl, hr, val_main_v19_apply, val_main_v18_apply, val_main_v17_apply, val_main_c_1_apply]
  rfl

/-- Class 3 weight matrix: slice 2 of the stack, reshaped to a matrix, at (d, e). -/
theorem v22_eq (x2 : Wts) (d e : Fin 64) :
    val_main_v22 (F := Ideal) x2 (ix2 d e) = x2 (ix3 2 d e) := by
  rw [val_main_v22_apply, val_main_v21_apply]
  refine congrArg x2 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 3 message along the row: the second contraction at (b, n, d). -/
theorem v23_eq (x0 : Feat) (x1 : Adj) (x2 : Wts) (b : Fin 16) (n : Fin 1024) (d : Fin 64) :
    val_main_v23 (F := Ideal) x0 x1 x2 (ix3 b n d)
      = term (fun j e => x0 (ix3 b j e)) (fun j => x1 (ix3 b n j)) (fun d e => x2 (ix3 2 d e)) 3#32 d := by
  rw [val_main_v23_apply]
  unfold term
  refine Finset.sum_congr rfl fun e _ => ?_
  have hl : lidx_main_v23 (ix3 b n d) e = ix3 b n e := funext fun a => by
    match a with
    | ⟨0, _⟩ => rfl
    | ⟨1, _⟩ => rfl
    | ⟨2, _⟩ => rfl
  have hr : ridx_main_v23 (ix3 b n d) e = ix2 d e := funext fun a => by
    match a with
    | ⟨0, _⟩ => rfl
    | ⟨1, _⟩ => rfl
  rw [hl, hr, v20_eq, v22_eq]

/-- Class 4 aggregate, labels read along the node's row: the first contraction at (b, n, e). -/
theorem v28_eq (x0 : Feat) (x1 : Adj) (b : Fin 16) (n : Fin 1024) (e : Fin 64) :
    val_main_v28 (F := Ideal) x0 x1 (ix3 b n e)
      = agg (fun j e => x0 (ix3 b j e)) (fun j => x1 (ix3 b n j)) 4#32 e := by
  rw [val_main_v28_apply]
  unfold agg
  refine Finset.sum_congr rfl fun j _ => ?_
  have hl : lidx_main_v28 (ix3 b n e) j = ix3 b n j := funext fun a => by
    match a with
    | ⟨0, _⟩ => rfl
    | ⟨1, _⟩ => rfl
    | ⟨2, _⟩ => rfl
  have hr : ridx_main_v28 (ix3 b n e) j = ix3 b j e := funext fun a => by
    match a with
    | ⟨0, _⟩ => rfl
    | ⟨1, _⟩ => rfl
    | ⟨2, _⟩ => rfl
  rw [hl, hr, val_main_v27_apply, val_main_v26_apply, val_main_v25_apply, val_main_c_2_apply]
  rfl

/-- Class 4 weight matrix: slice 3 of the stack, reshaped to a matrix, at (d, e). -/
theorem v30_eq (x2 : Wts) (d e : Fin 64) :
    val_main_v30 (F := Ideal) x2 (ix2 d e) = x2 (ix3 3 d e) := by
  rw [val_main_v30_apply, val_main_v29_apply]
  refine congrArg x2 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 4 message along the row: the second contraction at (b, n, d). -/
theorem v31_eq (x0 : Feat) (x1 : Adj) (x2 : Wts) (b : Fin 16) (n : Fin 1024) (d : Fin 64) :
    val_main_v31 (F := Ideal) x0 x1 x2 (ix3 b n d)
      = term (fun j e => x0 (ix3 b j e)) (fun j => x1 (ix3 b n j)) (fun d e => x2 (ix3 3 d e)) 4#32 d := by
  rw [val_main_v31_apply]
  unfold term
  refine Finset.sum_congr rfl fun e _ => ?_
  have hl : lidx_main_v31 (ix3 b n d) e = ix3 b n e := funext fun a => by
    match a with
    | ⟨0, _⟩ => rfl
    | ⟨1, _⟩ => rfl
    | ⟨2, _⟩ => rfl
  have hr : ridx_main_v31 (ix3 b n d) e = ix2 d e := funext fun a => by
    match a with
    | ⟨0, _⟩ => rfl
    | ⟨1, _⟩ => rfl
  rw [hl, hr, v28_eq, v30_eq]

/-- Class 1 aggregate, labels read along the node's column (the transposed table's row): the first contraction at (b, n, e). -/
theorem v38_eq (x0 : Feat) (x1 : Adj) (b : Fin 16) (n : Fin 1024) (e : Fin 64) :
    val_main_v38 (F := Ideal) x0 x1 (ix3 b n e)
      = agg (fun j e => x0 (ix3 b j e)) (fun j => x1 (ix3 b j n)) 1#32 e := by
  rw [val_main_v38_apply]
  unfold agg
  refine Finset.sum_congr rfl fun j _ => ?_
  have hl : lidx_main_v38 (ix3 b n e) j = ix3 b n j := funext fun a => by
    match a with
    | ⟨0, _⟩ => rfl
    | ⟨1, _⟩ => rfl
    | ⟨2, _⟩ => rfl
  have hr : ridx_main_v38 (ix3 b n e) j = ix3 b j e := funext fun a => by
    match a with
    | ⟨0, _⟩ => rfl
    | ⟨1, _⟩ => rfl
    | ⟨2, _⟩ => rfl
  have ht : idx_main_v33 (ix3 b n j) = ix3 b j n := funext fun a => by
    match a with
    | ⟨0, _⟩ => rfl
    | ⟨1, _⟩ => rfl
    | ⟨2, _⟩ => rfl
  rw [hl, hr, val_main_v37_apply, val_main_v36_apply, val_main_v33_apply, ht, val_main_v35_apply,
    val_main_c_4_apply]
  rfl

/-- Class 1 outgoing weight matrix: slice 0 of the stack, reshaped to a matrix, at (d, e). -/
theorem v40_eq (x3 : Wts) (d e : Fin 64) :
    val_main_v40 (F := Ideal) x3 (ix2 d e) = x3 (ix3 0 d e) := by
  rw [val_main_v40_apply, val_main_v39_apply]
  refine congrArg x3 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 1 message along the column: the second contraction at (b, n, d). -/
theorem v41_eq (x0 : Feat) (x1 : Adj) (x3 : Wts) (b : Fin 16) (n : Fin 1024) (d : Fin 64) :
    val_main_v41 (F := Ideal) x0 x1 x3 (ix3 b n d)
      = term (fun j e => x0 (ix3 b j e)) (fun j => x1 (ix3 b j n)) (fun d e => x3 (ix3 0 d e)) 1#32 d := by
  rw [val_main_v41_apply]
  unfold term
  refine Finset.sum_congr rfl fun e _ => ?_
  have hl : lidx_main_v41 (ix3 b n d) e = ix3 b n e := funext fun a => by
    match a with
    | ⟨0, _⟩ => rfl
    | ⟨1, _⟩ => rfl
    | ⟨2, _⟩ => rfl
  have hr : ridx_main_v41 (ix3 b n d) e = ix2 d e := funext fun a => by
    match a with
    | ⟨0, _⟩ => rfl
    | ⟨1, _⟩ => rfl
  rw [hl, hr, v38_eq, v40_eq]

/-- Class 2 aggregate, labels read along the node's column (the transposed table's row): the first contraction at (b, n, e). -/
theorem v46_eq (x0 : Feat) (x1 : Adj) (b : Fin 16) (n : Fin 1024) (e : Fin 64) :
    val_main_v46 (F := Ideal) x0 x1 (ix3 b n e)
      = agg (fun j e => x0 (ix3 b j e)) (fun j => x1 (ix3 b j n)) 2#32 e := by
  rw [val_main_v46_apply]
  unfold agg
  refine Finset.sum_congr rfl fun j _ => ?_
  have hl : lidx_main_v46 (ix3 b n e) j = ix3 b n j := funext fun a => by
    match a with
    | ⟨0, _⟩ => rfl
    | ⟨1, _⟩ => rfl
    | ⟨2, _⟩ => rfl
  have hr : ridx_main_v46 (ix3 b n e) j = ix3 b j e := funext fun a => by
    match a with
    | ⟨0, _⟩ => rfl
    | ⟨1, _⟩ => rfl
    | ⟨2, _⟩ => rfl
  have ht : idx_main_v33 (ix3 b n j) = ix3 b j n := funext fun a => by
    match a with
    | ⟨0, _⟩ => rfl
    | ⟨1, _⟩ => rfl
    | ⟨2, _⟩ => rfl
  rw [hl, hr, val_main_v45_apply, val_main_v44_apply, val_main_v33_apply, ht, val_main_v43_apply,
    val_main_c_5_apply]
  rfl

/-- Class 2 outgoing weight matrix: slice 1 of the stack, reshaped to a matrix, at (d, e). -/
theorem v48_eq (x3 : Wts) (d e : Fin 64) :
    val_main_v48 (F := Ideal) x3 (ix2 d e) = x3 (ix3 1 d e) := by
  rw [val_main_v48_apply, val_main_v47_apply]
  refine congrArg x3 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 2 message along the column: the second contraction at (b, n, d). -/
theorem v49_eq (x0 : Feat) (x1 : Adj) (x3 : Wts) (b : Fin 16) (n : Fin 1024) (d : Fin 64) :
    val_main_v49 (F := Ideal) x0 x1 x3 (ix3 b n d)
      = term (fun j e => x0 (ix3 b j e)) (fun j => x1 (ix3 b j n)) (fun d e => x3 (ix3 1 d e)) 2#32 d := by
  rw [val_main_v49_apply]
  unfold term
  refine Finset.sum_congr rfl fun e _ => ?_
  have hl : lidx_main_v49 (ix3 b n d) e = ix3 b n e := funext fun a => by
    match a with
    | ⟨0, _⟩ => rfl
    | ⟨1, _⟩ => rfl
    | ⟨2, _⟩ => rfl
  have hr : ridx_main_v49 (ix3 b n d) e = ix2 d e := funext fun a => by
    match a with
    | ⟨0, _⟩ => rfl
    | ⟨1, _⟩ => rfl
  rw [hl, hr, v46_eq, v48_eq]

/-- Class 3 aggregate, labels read along the node's column (the transposed table's row): the first contraction at (b, n, e). -/
theorem v54_eq (x0 : Feat) (x1 : Adj) (b : Fin 16) (n : Fin 1024) (e : Fin 64) :
    val_main_v54 (F := Ideal) x0 x1 (ix3 b n e)
      = agg (fun j e => x0 (ix3 b j e)) (fun j => x1 (ix3 b j n)) 3#32 e := by
  rw [val_main_v54_apply]
  unfold agg
  refine Finset.sum_congr rfl fun j _ => ?_
  have hl : lidx_main_v54 (ix3 b n e) j = ix3 b n j := funext fun a => by
    match a with
    | ⟨0, _⟩ => rfl
    | ⟨1, _⟩ => rfl
    | ⟨2, _⟩ => rfl
  have hr : ridx_main_v54 (ix3 b n e) j = ix3 b j e := funext fun a => by
    match a with
    | ⟨0, _⟩ => rfl
    | ⟨1, _⟩ => rfl
    | ⟨2, _⟩ => rfl
  have ht : idx_main_v33 (ix3 b n j) = ix3 b j n := funext fun a => by
    match a with
    | ⟨0, _⟩ => rfl
    | ⟨1, _⟩ => rfl
    | ⟨2, _⟩ => rfl
  rw [hl, hr, val_main_v53_apply, val_main_v52_apply, val_main_v33_apply, ht, val_main_v51_apply,
    val_main_c_6_apply]
  rfl

/-- Class 3 outgoing weight matrix: slice 2 of the stack, reshaped to a matrix, at (d, e). -/
theorem v56_eq (x3 : Wts) (d e : Fin 64) :
    val_main_v56 (F := Ideal) x3 (ix2 d e) = x3 (ix3 2 d e) := by
  rw [val_main_v56_apply, val_main_v55_apply]
  refine congrArg x3 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 3 message along the column: the second contraction at (b, n, d). -/
theorem v57_eq (x0 : Feat) (x1 : Adj) (x3 : Wts) (b : Fin 16) (n : Fin 1024) (d : Fin 64) :
    val_main_v57 (F := Ideal) x0 x1 x3 (ix3 b n d)
      = term (fun j e => x0 (ix3 b j e)) (fun j => x1 (ix3 b j n)) (fun d e => x3 (ix3 2 d e)) 3#32 d := by
  rw [val_main_v57_apply]
  unfold term
  refine Finset.sum_congr rfl fun e _ => ?_
  have hl : lidx_main_v57 (ix3 b n d) e = ix3 b n e := funext fun a => by
    match a with
    | ⟨0, _⟩ => rfl
    | ⟨1, _⟩ => rfl
    | ⟨2, _⟩ => rfl
  have hr : ridx_main_v57 (ix3 b n d) e = ix2 d e := funext fun a => by
    match a with
    | ⟨0, _⟩ => rfl
    | ⟨1, _⟩ => rfl
  rw [hl, hr, v54_eq, v56_eq]

/-- Class 4 aggregate, labels read along the node's column (the transposed table's row): the first contraction at (b, n, e). -/
theorem v62_eq (x0 : Feat) (x1 : Adj) (b : Fin 16) (n : Fin 1024) (e : Fin 64) :
    val_main_v62 (F := Ideal) x0 x1 (ix3 b n e)
      = agg (fun j e => x0 (ix3 b j e)) (fun j => x1 (ix3 b j n)) 4#32 e := by
  rw [val_main_v62_apply]
  unfold agg
  refine Finset.sum_congr rfl fun j _ => ?_
  have hl : lidx_main_v62 (ix3 b n e) j = ix3 b n j := funext fun a => by
    match a with
    | ⟨0, _⟩ => rfl
    | ⟨1, _⟩ => rfl
    | ⟨2, _⟩ => rfl
  have hr : ridx_main_v62 (ix3 b n e) j = ix3 b j e := funext fun a => by
    match a with
    | ⟨0, _⟩ => rfl
    | ⟨1, _⟩ => rfl
    | ⟨2, _⟩ => rfl
  have ht : idx_main_v33 (ix3 b n j) = ix3 b j n := funext fun a => by
    match a with
    | ⟨0, _⟩ => rfl
    | ⟨1, _⟩ => rfl
    | ⟨2, _⟩ => rfl
  rw [hl, hr, val_main_v61_apply, val_main_v60_apply, val_main_v33_apply, ht, val_main_v59_apply,
    val_main_c_7_apply]
  rfl

/-- Class 4 outgoing weight matrix: slice 3 of the stack, reshaped to a matrix, at (d, e). -/
theorem v64_eq (x3 : Wts) (d e : Fin 64) :
    val_main_v64 (F := Ideal) x3 (ix2 d e) = x3 (ix3 3 d e) := by
  rw [val_main_v64_apply, val_main_v63_apply]
  refine congrArg x3 (funext fun a => Fin.ext ?_)
  have hd := d.isLt
  have he := e.isLt
  match a with
  | ⟨0, _⟩ => rfl
  | ⟨1, _⟩ => show (d.val * 64 + e.val) / 64 % 64 = d.val; omega
  | ⟨2, _⟩ => show (d.val * 64 + e.val) % 64 = e.val; omega

/-- Class 4 message along the column: the second contraction at (b, n, d). -/
theorem v65_eq (x0 : Feat) (x1 : Adj) (x3 : Wts) (b : Fin 16) (n : Fin 1024) (d : Fin 64) :
    val_main_v65 (F := Ideal) x0 x1 x3 (ix3 b n d)
      = term (fun j e => x0 (ix3 b j e)) (fun j => x1 (ix3 b j n)) (fun d e => x3 (ix3 3 d e)) 4#32 d := by
  rw [val_main_v65_apply]
  unfold term
  refine Finset.sum_congr rfl fun e _ => ?_
  have hl : lidx_main_v65 (ix3 b n d) e = ix3 b n e := funext fun a => by
    match a with
    | ⟨0, _⟩ => rfl
    | ⟨1, _⟩ => rfl
    | ⟨2, _⟩ => rfl
  have hr : ridx_main_v65 (ix3 b n d) e = ix2 d e := funext fun a => by
    match a with
    | ⟨0, _⟩ => rfl
    | ⟨1, _⟩ => rfl
  rw [hl, hr, v62_eq, v64_eq]

/-- The incoming half at (b, n, d): the four class messages along the node's row, added to the zero array in the order
    of the classes. -/
theorem v32_eq (x0 : Feat) (x1 : Adj) (x2 : Wts) (b : Fin 16) (n : Fin 1024) (d : Fin 64) :
    val_main_v32 (F := Ideal) x0 x1 x2 (ix3 b n d)
      = msg (fun j e => x0 (ix3 b j e)) (fun j => x1 (ix3 b n j)) (fun c d e => x2 (ix3 c d e)) d := by
  rw [val_main_v32_apply, val_main_v24_apply, val_main_v16_apply, val_main_v8_apply, val_main_v0_apply,
    val_main_cst_apply, v7_eq, v15_eq, v23_eq, v31_eq]
  simp only [Ideal.addf_def]
  rw [Ideal.ofBits_def, Ideal.ofBits_zero_f32, zero_add]
  rfl

/-- The outgoing half at (b, n, d): the four class messages along the node's column, added to the zero array in the
    order of the classes. -/
theorem v66_eq (x0 : Feat) (x1 : Adj) (x3 : Wts) (b : Fin 16) (n : Fin 1024) (d : Fin 64) :
    val_main_v66 (F := Ideal) x0 x1 x3 (ix3 b n d)
      = msg (fun j e => x0 (ix3 b j e)) (fun j => x1 (ix3 b j n)) (fun c d e => x3 (ix3 c d e)) d := by
  rw [val_main_v66_apply, val_main_v58_apply, val_main_v50_apply, val_main_v42_apply, val_main_v34_apply,
    val_main_cst_3_apply, v41_eq, v49_eq, v57_eq, v65_eq]
  simp only [Ideal.addf_def]
  rw [Ideal.ofBits_def, Ideal.ofBits_zero_f32, zero_add]
  rfl

/-- The two halves laid side by side along the last axis, at (b, n, k): the incoming half for k below 64, the outgoing
    half at k - 64 from there on. -/
theorem v67_eq (x0 : Feat) (x1 : Adj) (x2 x3 : Wts) (b : Fin 16) (n : Fin 1024) (k : Fin 128) :
    val_main_v67 (F := Ideal) x0 x1 x2 x3 (ix3 b n k)
      = if h : k.val < 64 then val_main_v32 (F := Ideal) x0 x1 x2 (ix3 b n ⟨k.val, h⟩)
        else val_main_v66 (F := Ideal) x0 x1 x3 (ix3 b n ⟨k.val - 64, by have := k.isLt; omega⟩) :=
  Idealize.ShloMosaic.LayoutRead3.concat_axis2_apply (val_main_v32 (F := Ideal) x0 x1 x2)
    (val_main_v66 (F := Ideal) x0 x1 x3) rfl concatenates_S16x1024x64_S16x1024x64_S16x1024x128_d2 b n k

/-- The reference's last stage is the specification function: at every index, the message of the half the last
    coordinate falls in, plus the bias entry. -/
theorem ref_eq (x0 : (⟨S16x1024x64, .f32⟩ : BufTy).Contents (Elt Ideal)) (x1 : (⟨S16x1024x1024, .i32⟩ : BufTy).Contents (Elt Ideal))
    (x2 x3 : (⟨S4x64x64, .f32⟩ : BufTy).Contents (Elt Ideal)) (x4 : (⟨S128, .f32⟩ : BufTy).Contents (Elt Ideal)) :
    val_main_v70 (F := Ideal) x0 x1 x2 x3 x4 = G x0 x1 x2 x3 x4 := by
  funext i
  obtain ⟨b, n, k, rfl⟩ : ∃ b n k, i = ix3 b n k := ⟨i 0, i 1, i 2, eq_ix3 i⟩
  have hb : idx_main_v68 (idx_main_v69 (ix3 b n k)) = ix1 k := funext fun a => by
    match a with
    | ⟨0, _⟩ => rfl
  rw [G_apply, val_main_v70_apply, v67_eq, val_main_v69_apply, val_main_v68_apply, hb, Ideal.addf_def]
  unfold out
  congr 1
  by_cases h : k.val < 64
  · rw [dif_pos h, dif_pos h, v32_eq]
  · rw [dif_neg h, dif_neg h, v66_eq]

end Cert.ReferenceIdeal.RefValue

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.LibConcatPair.lean ====
/-
  Two matrices joined into one, read at coordinates. Laid side by side ([a, b₁] and [a, b₂] into [a, b] along the
  columns), the joined matrix reads the left piece at a column below b₁ and the right piece, b₁ columns to the
  left, from column b₁ on; stacked ([a₁, b] on top of [a₂, b] into [a, b] along the rows), it reads the top piece
  at a row below a₁ and the bottom piece, a₁ rows up, from row a₁ on. Each is the library's two-piece lemma
  with the per-axis arithmetic discharged for rank two.
-/
import Idealize.ShloMosaic.Lib.Pipeline.Value
import Idealize.ShloMosaic.Lib.ValueIdx

namespace Cert.Lib.ConcatPair

open Idealize.ShloMosaic Idealize.ShloMosaic.ValueIdx

variable {α : Type}

/-- Side by side, at a column of the left piece. -/
theorem cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₁) (k' : Fin b)
    (hk : k'.val = k.val) :
    concatenate ⟨2, ![a, b]⟩ 1 [⟨⟨2, ![a, b₁]⟩, x₁⟩, ⟨⟨2, ![a, b₂]⟩, x₂⟩] h (ix2 p k') = x₁ (ix2 p k) :=
  concatenate_pair_apply_left (1 : Fin 2) x₁ x₂ h (ix2 p k') rfl (ix2 p k) fun ax => by
    match ax with
    | ⟨0, _⟩ => rfl
    | ⟨1, _⟩ => exact hk.symm

/-- Side by side, at a column of the right piece. -/
theorem cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ 1) (p : Fin a) (k : Fin b₂) (k' : Fin b)
    (hk : k'.val = b₁ + k.val) :
    concatenate ⟨2, ![a, b]⟩ 1 [⟨⟨2, ![a, b₁]⟩, x₁⟩, ⟨⟨2, ![a, b₂]⟩, x₂⟩] h (ix2 p k') = x₂ (ix2 p k) :=
  concatenate_pair_apply_right (1 : Fin 2) x₁ x₂ h (ix2 p k') rfl rfl (ix2 p k)
    (fun ax hne => by
      match ax, hne with
      | ⟨0, _⟩, _ => rfl
      | ⟨1, _⟩, hne => exact absurd rfl hne)
    (by show k.val + b₁ = k'.val; omega)

/-- Stacked, at a row of the top piece. -/
theorem rows_top {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₁) (k' : Fin a) (c : Fin b)
    (hk : k'.val = k.val) :
    concatenate ⟨2, ![a, b]⟩ 0 [⟨⟨2, ![a₁, b]⟩, x₁⟩, ⟨⟨2, ![a₂, b]⟩, x₂⟩] h (ix2 k' c) = x₁ (ix2 k c) :=
  concatenate_pair_apply_left (0 : Fin 2) x₁ x₂ h (ix2 k' c) rfl (ix2 k c) fun ax => by
    match ax with
    | ⟨0, _⟩ => exact hk.symm
    | ⟨1, _⟩ => rfl

/-- Stacked, at a row of the bottom piece. -/
theorem rows_bottom {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ 0) (k : Fin a₂) (k' : Fin a) (c : Fin b)
    (hk : k'.val = a₁ + k.val) :
    concatenate ⟨2, ![a, b]⟩ 0 [⟨⟨2, ![a₁, b]⟩, x₁⟩, ⟨⟨2, ![a₂, b]⟩, x₂⟩] h (ix2 k' c) = x₂ (ix2 k c) :=
  concatenate_pair_apply_right (0 : Fin 2) x₁ x₂ h (ix2 k' c) rfl rfl (ix2 k c)
    (fun ax hne => by
      match ax, hne with
      | ⟨0, _⟩, hne => exact absurd rfl hne
      | ⟨1, _⟩, _ => rfl)
    (by show k.val + a₁ = k'.val; omega)

end Cert.Lib.ConcatPair
-- ==== Proof.KernelValue.lean ====
/-
  The kernel body's result block, read at an index.

  At one grid point the body holds one graph of the batch: its label table `A` as a block [1, 1024, 1024], its
  features TRANSPOSED as a block `X` [1, 64, 1024] (feature `e` of node `j` at `(0, e, j)`), the two stacks of weight
  matrices whole, and the bias. It turns the labels into four 0/1 matrices (label = class), multiplies the transposed
  features by each of them both ways — by the matrix itself, which sums over the ROWS of the label table and so reads a
  node's column, and by its transpose, which reads a node's row —, applies the class's weight matrix on the left,
  accumulates the four classes from zero, stacks the two accumulators, transposes the stack and adds the bias row.

  Read at `(0, n, k)` that is: for `k < 64` the message of node `n` along its row of labels at output feature `k` under
  the incoming weights, for `k ≥ 64` the message along its column at `k - 64` under the outgoing weights, plus bias
  `k` — the function `out` of the specification, with every product's factors in the other order. A change of float
  format is the identity on the extended reals, so none appears.
-/
import proofs.«114339_j73323681677623_2_alg».proof.Proof.Gen.KernelIdeal.Frame
import proofs.«114339_j73323681677623_2_alg».proof.Proof.Spec
import proofs.«114339_j73323681677623_2_alg».proof.Proof.LibPlainDot
import proofs.«114339_j73323681677623_2_alg».proof.Proof.LibGramDot
import proofs.«114339_j73323681677623_2_alg».proof.Proof.LibConcatPair
import Idealize.ShloMosaic.Lib.ValueLayout
import Idealize.ShloMosaic.Lib.Pipeline.Value

noncomputable section

open scoped BigOperators

namespace Cert.KernelIdeal.BodyValue

open Cert.KernelIdeal Cert.KernelIdeal.Gen Idealize.ShloMosaic Idealize.ShloMosaic.ValueIdx
open Cert.EdgeMessages Cert.Lib.PlainDot Cert.Lib.GramDot Cert.Lib.ConcatPair

/-! ## Blocks with a leading unit axis -/

/-- The transposed features as a matrix: entry `(e, j)` is the block's `(0, e, j)`. -/
theorem featT_apply (X : Vec Ideal S1x64x1024 .f32) (e : Fin 64) (j : Fin 1024) :
    k0_pay2 (F := Ideal) X (ix2 e j) = X (ix3 0 e j) :=
  shapeCast_1ab_ab_apply X shapeCasts_S1x64x1024_S64x1024 e j

/-- The label table as a matrix: entry `(p, q)` is the block's `(0, p, q)`. -/
theorem labels_apply (A : Vec Ideal S1x1024x1024 .i32) (p q : Fin 1024) :
    k0_pay3 (F := Ideal) A (ix2 p q) = A (ix3 0 p q) :=
  shapeCast_1ab_ab_apply A shapeCasts_S1x1024x1024_S1024x1024 p q

/-- A weight matrix cut out of its stack and cast to a matrix: entry `(d, e)` is the cut's `(0, d, e)`. -/
theorem weights_apply (Wc : Vec Ideal S1x64x64 .f32) (d e : Fin 64) :
    (truncf .bf16 (shapeCast S64x64 Wc shapeCasts_S1x64x64_S64x64) bitsLt_bf16_f32 : FVec Ideal S64x64 .bf16) (ix2 d e)
      = Wc (ix3 0 d e) :=
  shapeCast_1ab_ab_apply Wc shapeCasts_S1x64x64_S64x64 d e

/-! ## The 0/1 matrix of a class -/

/-- The label matrix compared with a class word, zero-extended, read signed, as a matrix of numbers. -/
def maskOf (adj2 : IVec S1024x1024 32) (cls : BitVec 32) : FVec Ideal S1024x1024 .bf16 :=
  truncf .bf16 (sitofp .f32 (extui 32 (cmpi .eq adj2 (broadcast S1024x1024 cls)) natLt_1_32)) bitsLt_bf16_f32

/-- Its entry is the indicator that the label is the class. -/
theorem maskOf_apply (adj2 : IVec S1024x1024 32) (cls : BitVec 32) (p q : Fin 1024) :
    maskOf adj2 cls (ix2 p q) = ind (adj2 (ix2 p q)) cls := by
  show ((((IntOp.cmpi .eq (adj2 (ix2 p q)) cls).setWidth 32).toInt : ℝ) : EReal) = _
  unfold ind
  rw [toInt_setWidth_bit, Int.cast_natCast]

/-! ## The three matrix products -/

/-- The transposed features times the TRANSPOSE of a class's 0/1 matrix: at `(e, i)` the class aggregate of node `i`
    read along its ROW of labels. -/
theorem aggRow_apply (ft : FVec Ideal S64x1024 .bf16) (adj2 : IVec S1024x1024 32) (cls : BitVec 32) (e : Fin 64) (i : Fin 1024) :
    matmul dot_S64x1024_S1024x1024_S64x1024_1_1_0_0_n_n none ft (maskOf adj2 cls) (constant S64x1024 .f32 0x00000000#32) (ix2 e i)
      = agg (fun j e => ft (ix2 e j)) (fun j => adj2 (ix2 i j)) cls e := by
  refine (matmul_transposedRhs_zero_apply (M := 64) (K := 1024) (N := 1024) none ft (maskOf adj2 cls) e i).trans ?_
  unfold agg
  refine Finset.sum_congr rfl fun j _ => ?_
  rw [maskOf_apply, mul_comm]

/-- The transposed features times a class's 0/1 matrix: at `(e, i)` the class aggregate of node `i` read along its
    COLUMN of labels. -/
theorem aggCol_apply (ft : FVec Ideal S64x1024 .bf16) (adj2 : IVec S1024x1024 32) (cls : BitVec 32) (e : Fin 64) (i : Fin 1024) :
    matmul dot_S64x1024_S1024x1024_S64x1024_1_0_0_1_n_n none ft (maskOf adj2 cls) (constant S64x1024 .f32 0x00000000#32) (ix2 e i)
      = agg (fun j e => ft (ix2 e j)) (fun j => adj2 (ix2 j i)) cls e := by
  refine (matmul_plain_zero_apply (M := 64) (K := 1024) (N := 1024) none ft (maskOf adj2 cls) e i).trans ?_
  unfold agg
  refine Finset.sum_congr rfl fun j _ => ?_
  rw [maskOf_apply, mul_comm]

/-- A weight matrix applied on the left to a matrix whose column `i` is `a`: at `(d, i)` the sum over `e` of
    `a e` times the weight `(d, e)`. -/
theorem applyW_apply (Wc : Vec Ideal S1x64x64 .f32) (Ag : FVec Ideal S64x1024 .f32) (d : Fin 64) (i : Fin 1024)
    (a : Fin 64 → EReal) (ha : ∀ e, Ag (ix2 e i) = a e) :
    matmul dot_S64x64_S64x1024_S64x1024_1_0_0_1_n_n none
        (truncf .bf16 (shapeCast S64x64 Wc shapeCasts_S1x64x64_S64x64) bitsLt_bf16_f32 : FVec Ideal S64x64 .bf16)
        (truncf .bf16 Ag bitsLt_bf16_f32 : FVec Ideal S64x1024 .bf16) (constant S64x1024 .f32 0x00000000#32) (ix2 d i)
      = ∑ e : Fin 64, a e * Wc (ix3 0 d e) := by
  refine (matmul_plain_zero_apply (M := 64) (K := 64) (N := 1024) none _ _ d i).trans ?_
  refine Finset.sum_congr rfl fun e _ => ?_
  rw [weights_apply, mul_comm]
  exact congrArg (· * Wc (ix3 0 d e)) (ha e)

/-! ## The accumulators, class by class -/

/-- A zero accumulator plus a matrix is the matrix. -/
theorem zeroAcc_apply (Y : FVec Ideal S64x1024 .f32) (d : Fin 64) (i : Fin 1024) :
    addf (broadcast S64x1024 (Scalar.ofBits (F := Ideal) .f32 0x00000000#32)) Y (ix2 d i) = Y (ix2 d i) := by
  show Ideal.ofBits .f32 0x00000000#32 + Y (ix2 d i) = _
  rw [Ideal.ofBits_zero_f32, zero_add]

/-- The features and labels the body's matrices hold, in the specification's orientation. -/
abbrev featOf (X : Vec Ideal S1x64x1024 .f32) : Fin 1024 → Fin 64 → EReal := fun j e => X (ix3 0 e j)
abbrev rowOf (A : Vec Ideal S1x1024x1024 .i32) (i : Fin 1024) : Fin 1024 → BitVec 32 := fun j => A (ix3 0 i j)
abbrev colOf (A : Vec Ideal S1x1024x1024 .i32) (i : Fin 1024) : Fin 1024 → BitVec 32 := fun j => A (ix3 0 j i)
abbrev wOf (Wc : Vec Ideal S1x64x64 .f32) : Fin 64 → Fin 64 → EReal := fun d e => Wc (ix3 0 d e)

/-- The aggregates over the body's own matrices are the aggregates over the blocks. -/
theorem agg_row_blocks (X : Vec Ideal S1x64x1024 .f32) (A : Vec Ideal S1x1024x1024 .i32) (cls : BitVec 32) (e : Fin 64) (i : Fin 1024) :
    agg (fun j e => k0_pay2 (F := Ideal) X (ix2 e j)) (fun j => k0_pay3 (F := Ideal) A (ix2 i j)) cls e
      = agg (featOf X) (rowOf A i) cls e := by
  simp only [featT_apply, labels_apply]

theorem agg_col_blocks (X : Vec Ideal S1x64x1024 .f32) (A : Vec Ideal S1x1024x1024 .i32) (cls : BitVec 32) (e : Fin 64) (i : Fin 1024) :
    agg (fun j e => k0_pay2 (F := Ideal) X (ix2 e j)) (fun j => k0_pay3 (F := Ideal) A (ix2 j i)) cls e
      = agg (featOf X) (colOf A i) cls e := by
  simp only [featT_apply, labels_apply]

/-- Class 1 along the rows of the labels, into the zero accumulator. -/
theorem pay5_apply (X : Vec Ideal S1x64x1024 .f32) (A : Vec Ideal S1x1024x1024 .i32) (W0 : Vec Ideal S1x64x64 .f32)
    (d : Fin 64) (i : Fin 1024) :
    k0_pay5 (F := Ideal) X A W0 (ix2 d i) = term (featOf X) (rowOf A i) (wOf W0) 1#32 d := by
  refine (zeroAcc_apply _ d i).trans ?_
  exact applyW_apply W0 _ d i _ fun e =>
    (aggRow_apply (k0_pay2 (F := Ideal) X) (k0_pay3 (F := Ideal) A) 1#32 e i).trans (agg_row_blocks X A 1#32 e i)

/-- Class 1 along the columns of the labels, into the zero accumulator. -/
theorem pay6_apply (X : Vec Ideal S1x64x1024 .f32) (A : Vec Ideal S1x1024x1024 .i32) (W0 : Vec Ideal S1x64x64 .f32)
    (d : Fin 64) (i : Fin 1024) :
    k0_pay6 (F := Ideal) X A W0 (ix2 d i) = term (featOf X) (colOf A i) (wOf W0) 1#32 d := by
  refine (zeroAcc_apply _ d i).trans ?_
  exact applyW_apply W0 _ d i _ fun e =>
    (aggCol_apply (k0_pay2 (F := Ideal) X) (k0_pay3 (F := Ideal) A) 1#32 e i).trans (agg_col_blocks X A 1#32 e i)

/-- Class 2's aggregates, along the columns and along the rows. -/
theorem pay8_apply (X : Vec Ideal S1x64x1024 .f32) (A : Vec Ideal S1x1024x1024 .i32) (e : Fin 64) (i : Fin 1024) :
    k0_pay8 (F := Ideal) X A (ix2 e i) = agg (featOf X) (colOf A i) 2#32 e :=
  (aggCol_apply (k0_pay2 (F := Ideal) X) (k0_pay3 (F := Ideal) A) 2#32 e i).trans (agg_col_blocks X A 2#32 e i)

theorem pay9_apply (X : Vec Ideal S1x64x1024 .f32) (A : Vec Ideal S1x1024x1024 .i32) (e : Fin 64) (i : Fin 1024) :
    k0_pay9 (F := Ideal) X A (ix2 e i) = agg (featOf X) (rowOf A i) 2#32 e :=
  (aggRow_apply (k0_pay2 (F := Ideal) X) (k0_pay3 (F := Ideal) A) 2#32 e i).trans (agg_row_blocks X A 2#32 e i)

/-- Class 4's aggregates, along the columns and along the rows. -/
theorem pay14_apply (X : Vec Ideal S1x64x1024 .f32) (A : Vec Ideal S1x1024x1024 .i32) (e : Fin 64) (i : Fin 1024) :
    k0_pay14 (F := Ideal) (k0_pay2 X) (k0_pay3 A) (ix2 e i) = agg (featOf X) (colOf A i) 4#32 e :=
  (aggCol_apply (k0_pay2 (F := Ideal) X) (k0_pay3 (F := Ideal) A) 4#32 e i).trans (agg_col_blocks X A 4#32 e i)

theorem pay15_apply (X : Vec Ideal S1x64x1024 .f32) (A : Vec Ideal S1x1024x1024 .i32) (e : Fin 64) (i : Fin 1024) :
    k0_pay15 (F := Ideal) (k0_pay2 X) (k0_pay3 A) (ix2 e i) = agg (featOf X) (rowOf A i) 4#32 e :=
  (aggRow_apply (k0_pay2 (F := Ideal) X) (k0_pay3 (F := Ideal) A) 4#32 e i).trans (agg_row_blocks X A 4#32 e i)

/-- Classes 2 and 3 added to the first class's accumulator, along the rows: `v22` is the accumulator after class 1
    and `v32` class 2's aggregate. -/
theorem pay11_apply (X : Vec Ideal S1x64x1024 .f32) (A : Vec Ideal S1x1024x1024 .i32) (v22 v32 : FVec Ideal S64x1024 .f32)
    (W1 W2 : Vec Ideal S1x64x64 .f32) (d : Fin 64) (i : Fin 1024) (t1 : EReal) (a2 : Fin 64 → EReal)
    (h22 : v22 (ix2 d i) = t1) (h32 : ∀ e, v32 (ix2 e i) = a2 e) :
    k0_pay11 (F := Ideal) (k0_pay2 X) (k0_pay3 A) v22 v32 W1 W2 (ix2 d i)
      = t1 + (∑ e : Fin 64, a2 e * W1 (ix3 0 d e)) + term (featOf X) (rowOf A i) (wOf W2) 3#32 d := by
  show (v22 (ix2 d i) + _) + _ = _
  refine congrArg₂ (· + ·) (congrArg₂ (· + ·) h22 (applyW_apply W1 v32 d i a2 h32)) ?_
  exact applyW_apply W2 _ d i _ fun e =>
    (aggRow_apply (k0_pay2 (F := Ideal) X) (k0_pay3 (F := Ideal) A) 3#32 e i).trans (agg_row_blocks X A 3#32 e i)

/-- The same along the columns. -/
theorem pay12_apply (X : Vec Ideal S1x64x1024 .f32) (A : Vec Ideal S1x1024x1024 .i32) (v25 v31 : FVec Ideal S64x1024 .f32)
    (W1 W2 : Vec Ideal S1x64x64 .f32) (d : Fin 64) (i : Fin 1024) (t1 : EReal) (a2 : Fin 64 → EReal)
    (h25 : v25 (ix2 d i) = t1) (h31 : ∀ e, v31 (ix2 e i) = a2 e) :
    k0_pay12 (F := Ideal) (k0_pay2 X) (k0_pay3 A) v25 v31 W1 W2 (ix2 d i)
      = t1 + (∑ e : Fin 64, a2 e * W1 (ix3 0 d e)) + term (featOf X) (colOf A i) (wOf W2) 3#32 d := by
  show (v25 (ix2 d i) + _) + _ = _
  refine congrArg₂ (· + ·) (congrArg₂ (· + ·) h25 (applyW_apply W1 v31 d i a2 h31)) ?_
  exact applyW_apply W2 _ d i _ fun e =>
    (aggCol_apply (k0_pay2 (F := Ideal) X) (k0_pay3 (F := Ideal) A) 3#32 e i).trans (agg_col_blocks X A 3#32 e i)

/-! ## The weight matrices cut out of their stack -/

theorem hz3 : (![0, 0, 0] : Fin 3 → Nat) = fun _ => 0 := funext fun a => by fin_cases a <;> rfl
theorem hz1 : (![0] : Fin 1 → Nat) = fun _ => 0 := funext fun a => by fin_cases a <;> rfl

/-- The cut at offset `c` along the first axis holds matrix `c` of the stack. -/
theorem wslice0 (W : Vec Ideal S4x64x64 .f32) : wOf (View.ld W r0_2) = fun d e => W (ix3 0 d e) := by
  funext d e
  show W (r0_2.emb (ix3 0 d e)) = _
  refine congrArg W (funext fun a => Fin.ext ?_)
  match a with
  | ⟨0, _⟩ => rfl
  | ⟨1, _⟩ => show 0 + 1 * d.val = d.val; omega
  | ⟨2, _⟩ => show 0 + 1 * e.val = e.val; omega

theorem wslice1 (W : Vec Ideal S4x64x64 .f32) : wOf (View.ld W r0_3) = fun d e => W (ix3 1 d e) := by
  funext d e
  show W (r0_3.emb (ix3 0 d e)) = _
  refine congrArg W (funext fun a => Fin.ext ?_)
  match a with
  | ⟨0, _⟩ => rfl
  | ⟨1, _⟩ => show 0 + 1 * d.val = d.val; omega
  | ⟨2, _⟩ => show 0 + 1 * e.val = e.val; omega

theorem wslice2 (W : Vec Ideal S4x64x64 .f32) : wOf (View.ld W r0_4) = fun d e => W (ix3 2 d e) := by
  funext d e
  show W (r0_4.emb (ix3 0 d e)) = _
  refine congrArg W (funext fun a => Fin.ext ?_)
  match a with
  | ⟨0, _⟩ => rfl
  | ⟨1, _⟩ => show 0 + 1 * d.val = d.val; omega
  | ⟨2, _⟩ => show 0 + 1 * e.val = e.val; omega

theorem wslice3 (W : Vec Ideal S4x64x64 .f32) : wOf (View.ld W r0_5) = fun d e => W (ix3 3 d e) := by
  funext d e
  show W (r0_5.emb (ix3 0 d e)) = _
  refine congrArg W (funext fun a => Fin.ext ?_)
  match a with
  | ⟨0, _⟩ => rfl
  | ⟨1, _⟩ => show 0 + 1 * d.val = d.val; omega
  | ⟨2, _⟩ => show 0 + 1 * e.val = e.val; omega

/-! ## The last class, the stack, the transpose and the bias -/

/-- The result block at `(0, n, k)`: entry `(k, n)` of the two accumulators stacked — the first for `k < 64`, the second
    at `k - 64` otherwise — each with its last class added, plus bias `k`. `aIn` and `aOut` are column `n` of the last
    class's two aggregates. -/
theorem pay1_apply (v60 v63 v69 v70 : FVec Ideal S64x1024 .f32) (Wi3 Wo3 : Vec Ideal S1x64x64 .f32) (bv : Vec Ideal S128 .f32)
    (n : Fin 1024) (k : Fin 128) (aIn aOut : Fin 64 → EReal) (h70 : ∀ e, v70 (ix2 e n) = aIn e) (h69 : ∀ e, v69 (ix2 e n) = aOut e) :
    k0_pay1 (F := Ideal) v60 v63 v69 v70 Wi3 Wo3 bv (ix3 0 n k)
      = (if h : k.val < 64 then v60 (ix2 ⟨k.val, h⟩ n) + ∑ e : Fin 64, aIn e * Wi3 (ix3 0 ⟨k.val, h⟩ e)
          else v63 (ix2 ⟨k.val - 64, by have := k.isLt; omega⟩ n)
            + ∑ e : Fin 64, aOut e * Wo3 (ix3 0 ⟨k.val - 64, by have := k.isLt; omega⟩ e)) + bv (ix1 k) := by
  unfold k0_pay1
  refine (shapeCast_ab_1ab_apply (α := EReal) _ shapeCasts_S1024x128_S1x1024x128 0 n k).trans ?_
  refine congrArg₂ (· + ·) ?_ ?_
  · refine (transpose_ix2_apply _ transposes_S128x1024_p1_0_S1024x128 n k).trans ?_
    by_cases h : k.val < 64
    · rw [dif_pos h]
      refine (rows_top _ _ concatenates_S64x1024_S64x1024_S128x1024_d0 ⟨k.val, h⟩ k n rfl).trans ?_
      exact congrArg (v60 (ix2 ⟨k.val, h⟩ n) + ·) (applyW_apply Wi3 v70 ⟨k.val, h⟩ n aIn h70)
    · rw [dif_neg h]
      have hk : k.val - 64 < 64 := by have := k.isLt; omega
      refine (rows_bottom _ _ concatenates_S64x1024_S64x1024_S128x1024_d0 ⟨k.val - 64, hk⟩ k n
        (by show k.val = 64 + (k.val - 64); omega)).trans ?_
      exact congrArg (v63 (ix2 ⟨k.val - 64, hk⟩ n) + ·) (applyW_apply Wo3 v69 ⟨k.val - 64, hk⟩ n aOut h69)
  · refine (broadcastTo_1b_ab_apply _ broadcasts_S1x128_S1024x128 n k).trans ?_
    exact shapeCast_a_1a_apply bv shapeCasts_S128_S1x128 0 k

/-! ## The whole block -/

/-- One direction's accumulator with its last class, at `(d, i)`, is the message: the four classes' terms in order. -/
theorem msg_of_terms (feat : Fin 1024 → Fin 64 → EReal) (row : Fin 1024 → BitVec 32) (W : Fin 4 → Fin 64 → Fin 64 → EReal) (d : Fin 64) :
    term feat row (W 0) 1#32 d + (∑ e : Fin 64, agg feat row 2#32 e * W 1 d e) + term feat row (W 2) 3#32 d
        + ∑ e : Fin 64, agg feat row 4#32 e * W 3 d e
      = msg feat row W d := rfl

end Cert.KernelIdeal.BodyValue

end
-- ==== Proof.KernelBody.lean ====
/-
  The kernel body's result block is the specification's `out` of the point's input blocks.

  The block is the one store's payload read through the whole buffer. Its loads are the label block, the transposed
  feature block and the bias whole, and the four matrices of each weight stack cut out one by one. Reading the
  payload from the outside in — the stack, transpose and bias, then each direction's accumulator, three classes
  deep, then the first class into zero — gives, for an entry below 64, the four classes' terms along the node's row of
  labels in the order of the classes, which is the message; from 64 on the same along its column.
-/
import proofs.«114339_j73323681677623_2_alg».proof.Proof.Gen.KernelIdeal.Frame
import proofs.«114339_j73323681677623_2_alg».proof.Proof.Spec
import proofs.«114339_j73323681677623_2_alg».proof.Proof.KernelValue

noncomputable section

open scoped BigOperators

namespace Cert.KernelIdeal.BodyValue

open Cert.KernelIdeal Cert.KernelIdeal.Gen Idealize.ShloMosaic Idealize.ShloMosaic.ValueIdx Cert.EdgeMessages

/-- Matrix `c` of a weight stack, through the cut at offset `c`, entry by entry. -/
theorem wread0 (W : Vec Ideal S4x64x64 .f32) (d e : Fin 64) : View.ld W r0_2 (ix3 0 d e) = W (ix3 0 d e) :=
  congrFun (congrFun (wslice0 W) d) e
theorem wread1 (W : Vec Ideal S4x64x64 .f32) (d e : Fin 64) : View.ld W r0_3 (ix3 0 d e) = W (ix3 1 d e) :=
  congrFun (congrFun (wslice1 W) d) e
theorem wread2 (W : Vec Ideal S4x64x64 .f32) (d e : Fin 64) : View.ld W r0_4 (ix3 0 d e) = W (ix3 2 d e) :=
  congrFun (congrFun (wslice2 W) d) e
theorem wread3 (W : Vec Ideal S4x64x64 .f32) (d e : Fin 64) : View.ld W r0_5 (ix3 0 d e) = W (ix3 3 d e) :=
  congrFun (congrFun (wslice3 W) d) e

/-- An accumulator's four terms over the matrices cut out of a weight stack are the message under that stack. -/
theorem acc_eq_msg (feat : Fin 1024 → Fin 64 → EReal) (row : Fin 1024 → BitVec 32) (W : Vec Ideal S4x64x64 .f32) (d : Fin 64) :
    term feat row (wOf (View.ld W r0_2)) 1#32 d + (∑ e : Fin 64, agg feat row 2#32 e * View.ld W r0_3 (ix3 0 d e))
        + term feat row (wOf (View.ld W r0_4)) 3#32 d + ∑ e : Fin 64, agg feat row 4#32 e * View.ld W r0_5 (ix3 0 d e)
      = msg feat row (fun c d e => W (ix3 c d e)) d := by
  rw [wslice0, wslice2]
  have s2 : (∑ e : Fin 64, agg feat row 2#32 e * View.ld W r0_3 (ix3 0 d e)) = ∑ e : Fin 64, agg feat row 2#32 e * W (ix3 1 d e) :=
    Finset.sum_congr rfl fun e _ => congrArg (agg feat row 2#32 e * ·) (wread1 W d e)
  have s4 : (∑ e : Fin 64, agg feat row 4#32 e * View.ld W r0_5 (ix3 0 d e)) = ∑ e : Fin 64, agg feat row 4#32 e * W (ix3 3 d e) :=
    Finset.sum_congr rfl fun e _ => congrArg (agg feat row 4#32 e * ·) (wread3 W d e)
  rw [s2, s4]
  rfl

/-- The first accumulator with its last class added, at `(d, n)`: the message of node `n` along its row of labels. -/
theorem rowAcc_apply (A : Vec Ideal S1x1024x1024 .i32) (X : Vec Ideal S1x64x1024 .f32) (Wi : Vec Ideal S4x64x64 .f32)
    (d : Fin 64) (n : Fin 1024) :
    k0_pay11 (F := Ideal) (k0_pay2 X) (k0_pay3 A) (k0_pay5 X A (View.ld Wi r0_2)) (k0_pay9 X A) (View.ld Wi r0_3) (View.ld Wi r0_4) (ix2 d n)
        + ∑ e : Fin 64, agg (featOf X) (rowOf A n) 4#32 e * View.ld Wi r0_5 (ix3 0 d e)
      = msg (fun j e => X (ix3 0 e j)) (fun j => A (ix3 0 n j)) (fun c d e => Wi (ix3 c d e)) d := by
  refine (congrArg (· + ∑ e : Fin 64, agg (featOf X) (rowOf A n) 4#32 e * View.ld Wi r0_5 (ix3 0 d e))
    (pay11_apply X A _ _ (View.ld Wi r0_3) (View.ld Wi r0_4) d n _ _ (pay5_apply X A (View.ld Wi r0_2) d n)
      (fun e => pay9_apply X A e n))).trans ?_
  exact acc_eq_msg (featOf X) (rowOf A n) Wi d

/-- The second accumulator with its last class added, at `(d, n)`: the message of node `n` along its column of labels. -/
theorem colAcc_apply (A : Vec Ideal S1x1024x1024 .i32) (X : Vec Ideal S1x64x1024 .f32) (Wo : Vec Ideal S4x64x64 .f32)
    (d : Fin 64) (n : Fin 1024) :
    k0_pay12 (F := Ideal) (k0_pay2 X) (k0_pay3 A) (k0_pay6 X A (View.ld Wo r0_2)) (k0_pay8 X A) (View.ld Wo r0_3) (View.ld Wo r0_4) (ix2 d n)
        + ∑ e : Fin 64, agg (featOf X) (colOf A n) 4#32 e * View.ld Wo r0_5 (ix3 0 d e)
      = msg (fun j e => X (ix3 0 e j)) (fun j => A (ix3 0 j n)) (fun c d e => Wo (ix3 c d e)) d := by
  refine (congrArg (· + ∑ e : Fin 64, agg (featOf X) (colOf A n) 4#32 e * View.ld Wo r0_5 (ix3 0 d e))
    (pay12_apply X A _ _ (View.ld Wo r0_3) (View.ld Wo r0_4) d n _ _ (pay6_apply X A (View.ld Wo r0_2) d n)
      (fun e => pay8_apply X A e n))).trans ?_
  exact acc_eq_msg (featOf X) (colOf A n) Wo d

/-- What the body leaves in the output block, at `(0, n, k)`, from the point's input blocks: the label block `A`, the
    transposed feature block `X`, the two weight stacks and the bias. -/
theorem body_apply (A : Vec Ideal S1x1024x1024 .i32) (X : Vec Ideal S1x64x1024 .f32) (Wi Wo : Vec Ideal S4x64x64 .f32)
    (bv : Vec Ideal S128 .f32) (n : Fin 1024) (k : Fin 128) :
    out0_5 (F := Ideal) A X Wi Wo bv (ix3 0 n k)
      = out (fun j e => X (ix3 0 e j)) (fun j => A (ix3 0 n j)) (fun j => A (ix3 0 j n))
          (fun c d e => Wi (ix3 c d e)) (fun c d e => Wo (ix3 c d e)) (fun k => bv (ix1 k)) k := by
  unfold out0_5
  rw [View.canon_unit_zero hz3]
  simp only [View.ld_unit_zero (S := S1x64x1024) hz3, View.ld_unit_zero (S := S1x1024x1024) hz3,
    View.ld_unit_zero (S := S128) hz1]
  refine (pay1_apply _ _ _ _ (View.ld Wi r0_5) (View.ld Wo r0_5) bv n k
    (fun e => agg (featOf X) (rowOf A n) 4#32 e) (fun e => agg (featOf X) (colOf A n) 4#32 e)
    (fun e => pay15_apply X A e n) (fun e => pay14_apply X A e n)).trans ?_
  unfold out
  refine congrArg (· + bv (ix1 k)) ?_
  by_cases h : k.val < 64
  · rw [dif_pos h, dif_pos h]
    exact rowAcc_apply A X Wi ⟨k.val, h⟩ n
  · rw [dif_neg h, dif_neg h]
    exact colAcc_apply A X Wo ⟨k.val - 64, by have := k.isLt; omega⟩ n

end Cert.KernelIdeal.BodyValue

end
-- ==== Proof.KernelRun.lean ====
/-
  From the kernel's blocks to the whole result array.

  The kernel runs once per graph of the batch. At point t it reads the t-th square of the label table, the t-th block
  of the feature array transposed (the transposition is done once, over the whole batch, before the first point), both
  stacks of weight matrices and the bias whole, and writes the t-th block of the result. The body's result block is the
  specification's row function of its input blocks; read through each block's place in its array, that is the
  specification function of the argument arrays restricted to the block. The sixteen blocks fill the result array, so
  after the run the array is the specification function of the arguments.
-/
import proofs.«114339_j73323681677623_2_alg».proof.Proof.Gen.KernelIdeal.Value
import proofs.«114339_j73323681677623_2_alg».proof.Proof.KernelBody
import proofs.«114339_j73323681677623_2_alg».proof.Proof.Spec
import Idealize.ShloMosaic.Lib.ValueLayout
import Idealize.ShloMosaic.Lib.Pipeline.Value

noncomputable section

namespace Cert.KernelIdeal.RunValue

open Cert.KernelIdeal Cert.KernelIdeal.Gen Idealize.ShloMosaic Idealize.ShloMosaic.TcCoe Idealize.SL.Sem
open Idealize.ShloMosaic.ValueIdx Cert.EdgeMessages
open Idealize.ShloMosaic.Pipeline (Dat)

variable (m : (ℓ : Loc nD τ sig) → Buf (Elt Ideal) ℓ) (ρ : Dev nD → PrngReg)

/-- The transposed feature array the region finds: the feature argument with its last two axes swapped. -/
theorem V_transposed (c : Dev nD) :
    (V m c main_v0 : S16x64x1024.Idx → EReal)
      = transpose S16x64x1024 [0, 2, 1] (m ((c : Thread nD τ).loc main_arg0)) transposes_S16x1024x64_S16x64x1024_0_2_1 := by
  dsimp only [Gen.V, Gen.hostOps0]; after_results

/-- Read at (b, e, j), it is the feature argument at (b, j, e). -/
theorem V_transposed_apply (c : Dev nD) (b : Fin 16) (e : Fin 64) (j : Fin 1024) :
    (V m c main_v0 : S16x64x1024.Idx → EReal) (ix3 b e j)
      = (m ((c : Thread nD τ).loc main_arg0) : S16x1024x64.Idx → EReal) (ix3 b j e) := by
  rw [V_transposed]
  exact transpose_ix3_021_apply _ _ b e j

/-- The block index of every window at every point, decided over the sixteen points: the label square, the transposed
    feature block and the result block are the point's own along the batch axis and the first along the others; the
    weight stacks and the bias are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 3) = t.val ∧ win0_5.index t (1 : Fin 3) = 0 ∧ win0_5.index t (2 : Fin 3) = 0
    ∧ t.val < 16 :=
  (by decide +kernel : ∀ t : Fin grid0.N, _)

/-! ## Each input block, read where it lies in its array -/

/-- The label square of point t at (0, p, q) is the label table at (t, p, q). -/
theorem labels_block (c : Dev nD) (t : Fin cfg0.N) (b : Fin 16) (hb : b.val = t.val) (p q : Fin 1024) :
    (iblk m c 0 t : Vec Ideal S1x1024x1024 .i32) (ix3 0 p q)
      = (m ((c : Thread nD τ).loc main_arg1) : S16x1024x1024.Idx → BitVec 32) (ix3 b p q) := by
  obtain ⟨e0, e1, e2, -⟩ := idx_facts t
  show V m c main_arg1 (((cfg0.win 0).blk t).view.emb (ix3 0 p q)) = m (c.tc.loc main_arg1) (ix3 b p q)
  rw [V_main_arg1]
  congr 1
  funext a
  apply Fin.ext
  match a with
  | ⟨0, _⟩ => show win0_0.index t (0 : Fin 3) * 1 + 1 * 0 = b.val; omega
  | ⟨1, _⟩ => show win0_0.index t (1 : Fin 3) * 1024 + 1 * p.val = p.val; omega
  | ⟨2, _⟩ => show win0_0.index t (2 : Fin 3) * 1024 + 1 * q.val = q.val; omega

/-- The transposed feature block of point t at (0, e, j) is the feature argument at (t, j, e). -/
theorem features_block (c : Dev nD) (t : Fin cfg0.N) (b : Fin 16) (hb : b.val = t.val) (e : Fin 64) (j : Fin 1024) :
    (iblk m c 1 t : Vec Ideal S1x64x1024 .f32) (ix3 0 e j)
      = (m ((c : Thread nD τ).loc main_arg0) : S16x1024x64.Idx → EReal) (ix3 b j e) := by
  obtain ⟨-, -, -, e0, e1, e2, -⟩ := idx_facts t
  refine Eq.trans ?_ (V_transposed_apply m c b e j)
  show V m c main_v0 (((cfg0.win 1).blk t).view.emb (ix3 0 e j)) = V m c main_v0 (ix3 b e j)
  congr 1
  funext a
  apply Fin.ext
  match a with
  | ⟨0, _⟩ => show win0_1.index t (0 : Fin 3) * 1 + 1 * 0 = b.val; omega
  | ⟨1, _⟩ => show win0_1.index t (1 : Fin 3) * 64 + 1 * e.val = e.val; omega
  | ⟨2, _⟩ => show win0_1.index t (2 : Fin 3) * 1024 + 1 * j.val = j.val; omega

/-- The incoming weights are staged whole: the block is the argument. -/
theorem weights_in_block (c : Dev nD) (t : Fin cfg0.N) (k : Fin 4) (d e : Fin 64) :
    (iblk m c 2 t : Vec Ideal S4x64x64 .f32) (ix3 k d e)
      = (m ((c : Thread nD τ).loc main_arg2) : S4x64x64.Idx → EReal) (ix3 k d e) := by
  obtain ⟨-, -, -, -, -, -, e0, e1, e2, -⟩ := idx_facts t
  show V m c main_arg2 (((cfg0.win 2).blk t).view.emb (ix3 k d e)) = m (c.tc.loc main_arg2) (ix3 k d e)
  rw [V_main_arg2]
  congr 1
  funext a
  apply Fin.ext
  match a with
  | ⟨0, _⟩ => show win0_2.index t (0 : Fin 3) * 4 + 1 * k.val = k.val; omega
  | ⟨1, _⟩ => show win0_2.index t (1 : Fin 3) * 64 + 1 * d.val = d.val; omega
  | ⟨2, _⟩ => show win0_2.index t (2 : Fin 3) * 64 + 1 * e.val = e.val; omega

/-- The outgoing weights are staged whole: the block is the argument. -/
theorem weights_out_block (c : Dev nD) (t : Fin cfg0.N) (k : Fin 4) (d e : Fin 64) :
    (iblk m c 3 t : Vec Ideal S4x64x64 .f32) (ix3 k d e)
      = (m ((c : Thread nD τ).loc main_arg3) : S4x64x64.Idx → EReal) (ix3 k d e) := by
  obtain ⟨-, -, -, -, -, -, -, -, -, e0, e1, e2, -⟩ := idx_facts t
  show V m c main_arg3 (((cfg0.win 3).blk t).view.emb (ix3 k d e)) = m (c.tc.loc main_arg3) (ix3 k d e)
  rw [V_main_arg3]
  congr 1
  funext a
  apply Fin.ext
  match a with
  | ⟨0, _⟩ => show win0_3.index t (0 : Fin 3) * 4 + 1 * k.val = k.val; omega
  | ⟨1, _⟩ => show win0_3.index t (1 : Fin 3) * 64 + 1 * d.val = d.val; omega
  | ⟨2, _⟩ => show win0_3.index t (2 : Fin 3) * 64 + 1 * e.val = e.val; omega

/-- The bias is staged whole: the block is the argument. -/
theorem bias_block (c : Dev nD) (t : Fin cfg0.N) (k : Fin 128) :
    (iblk m c 4 t : Vec Ideal S128 .f32) (ix1 k)
      = (m ((c : Thread nD τ).loc main_arg4) : S128.Idx → EReal) (ix1 k) := by
  obtain ⟨-, -, -, -, -, -, -, -, -, -, -, -, e0, -⟩ := idx_facts t
  show V m c main_arg4 (((cfg0.win 4).blk t).view.emb (ix1 k)) = m (c.tc.loc main_arg4) (ix1 k)
  rw [V_main_arg4]
  congr 1
  funext a
  apply Fin.ext
  match a with
  | ⟨0, _⟩ => show win0_4.index t (0 : Fin 1) * 128 + 1 * k.val = k.val; omega

/-- The result block of point t lies at (t, ·, ·) of the result array. -/
theorem result_place (t : Fin cfg0.N) (b : Fin 16) (hb : b.val = t.val) (n : Fin 1024) (k : Fin 128) :
    (((cfg0.win 5).blk t).view.emb (ix3 0 n k) : S16x1024x128.Idx) = ix3 b n k := by
  obtain ⟨-, -, -, -, -, -, -, -, -, -, -, -, -, e0, e1, e2, -⟩ := idx_facts t
  funext a
  apply Fin.ext
  match a with
  | ⟨0, _⟩ => show win0_5.index t (0 : Fin 3) * 1 + 1 * 0 = b.val; omega
  | ⟨1, _⟩ => show win0_5.index t (1 : Fin 3) * 1024 + 1 * n.val = n.val; omega
  | ⟨2, _⟩ => show win0_5.index t (2 : Fin 3) * 128 + 1 * k.val = k.val; omega

/-! ## What a point writes back -/

/-- The body's result at (0, n, k) of point t's block is the specification function of the argument arrays at
    (t, n, k): the body's row function of the blocks, each block read where it lies in its array. -/
theorem point_apply (c : Dev nD) (t : Fin cfg0.N) (b : Fin 16) (hb : b.val = t.val) (n : Fin 1024) (k : Fin 128) :
    out0_5 (F := Ideal) (iblk m c 0 t) (iblk m c 1 t) (iblk m c 2 t) (iblk m c 3 t) (iblk m c 4 t) (ix3 0 n k)
      = G (m ((c : Thread nD τ).loc main_arg0)) (m ((c : Thread nD τ).loc main_arg1))
        (m ((c : Thread nD τ).loc main_arg2)) (m ((c : Thread nD τ).loc main_arg3)) (m ((c : Thread nD τ).loc main_arg4)) (ix3 b n k) := by
  refine (BodyValue.body_apply (iblk m c 0 t) (iblk m c 1 t) (iblk m c 2 t) (iblk m c 3 t) (iblk m c 4 t) n k).trans ?_
  rw [G_apply]
  congr 1
  · funext j e; exact features_block m c t b hb e j
  · funext j; exact labels_block m c t b hb n j
  · funext j; exact labels_block m c t b hb j n
  · funext k' d e; exact weights_in_block m c t k' d e
  · funext k' d e; exact weights_out_block m c t k' d e
  · funext k'; exact bias_block m c t k'

/-- What point t writes back is block t of the specification function of the argument arrays. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed5]
  have ht : t.val < 16 := (idx_facts t).2.2.2.2.2.2.2.2.2.2.2.2.2.2.2.2
  funext y
  obtain ⟨n, k, rfl⟩ : ∃ (n : Fin 1024) (k : Fin 128), y = ix3 (0 : Fin 1) n k :=
    ⟨y 1, y 2, funext fun a => by
      match a with
      | ⟨0, _⟩ => exact Fin.ext (Nat.lt_one_iff.mp (y 0).isLt)
      | ⟨1, _⟩ => rfl
      | ⟨2, _⟩ => rfl⟩
  show out0_5 (F := Ideal) (iblk m c 0 t) (iblk m c 1 t) (iblk m c 2 t) (iblk m c 3 t) (iblk m c 4 t) (ix3 0 n k)
      = G (m ((c : Thread nD τ).loc main_arg0)) (m ((c : Thread nD τ).loc main_arg1))
        (m ((c : Thread nD τ).loc main_arg2)) (m ((c : Thread nD τ).loc main_arg3)) (m ((c : Thread nD τ).loc main_arg4)) (((cfg0.win 5).blk t).view.emb (ix3 0 n k))
  exact (point_apply m c t ⟨t.val, ht⟩ rfl n k).trans
    (congrArg (G (m ((c : Thread nD τ).loc main_arg0)) (m ((c : Thread nD τ).loc main_arg1))
        (m ((c : Thread nD τ).loc main_arg2)) (m ((c : Thread nD τ).loc main_arg3)) (m ((c : Thread nD τ).loc main_arg4))) (result_place t ⟨t.val, ht⟩ rfl n k).symm)

/-! ## The blocks fill the array -/

/-- An index of the result array is in point t's block iff each coordinate is in the block's range on its axis. -/
theorem mem_blk (t : Fin cfg0.N) (i : S16x1024x128.Idx) :
    i ∈ ((cfg0.win 5).blk t).view.set ↔ ∀ a : Fin 3, win0_5.index t a * S1x1024x128.size a ≤ (i a).val
      ∧ (i a).val < win0_5.index t a * S1x1024x128.size a + S1x1024x128.size a := by
  show i ∈ ((View.whole main_v1).slice (win0_5.rect t)).set ↔ _
  rw [View.set_slice_whole, Rect.mem_set_unit]
  exact Iff.rfl

/-- Every index of the result array is in the block of the point its first coordinate names, and that point writes
    its block back. -/
theorem cover (i : S16x1024x128.Idx) :
    ∃ t : Fin cfg0.N, (cfg0.win 5).flush t = true ∧ i ∈ ((cfg0.win 5).blk t).view.set := by
  obtain ⟨t, htv⟩ : ∃ t : Fin cfg0.N, t.val = (i 0).val := ⟨⟨(i 0).val, by rw [show cfg0.N = 16 from N_0]; exact (i 0).isLt⟩, rfl⟩
  refine ⟨t, flush0_5 t, ?_⟩
  rw [mem_blk]
  obtain ⟨-, -, -, -, -, -, -, -, -, -, -, -, -, e0, e1, e2, -⟩ := idx_facts t
  have h1 : (i 1).val < 1024 := (i 1).isLt
  have h2 : (i 2).val < 128 := (i 2).isLt
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 128 ≤ (i 2).val ∧ (i 2).val < win0_5.index t (2 : Fin 3) * 128 + 128; omega

/-- The result array after the run is the specification function of the argument arrays. -/
theorem final (c : Dev nD) :
    (dats m 0 c).arrAt 5 cfg0.N = G (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5 (G (m ((c : Thread nD τ).loc main_arg0)) (m ((c : Thread nD τ).loc main_arg1))
        (m ((c : Thread nD τ).loc main_arg2)) (m ((c : Thread nD τ).loc main_arg3)) (m ((c : Thread nD τ).loc main_arg4))) (fun t _ => flushed_eq m c t) cover

/-! ## The run, read -/

/-- Every run of the kernel ends with the result array at the specification function of the arguments, the
    arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.RunValue

end
-- ==== Proof.lean ====
/-
  Messages along typed edges: a kernel that works on transposed features against the plain formulation.

  For each graph of a batch, each node `n` and each of four edge classes `c`, the reference sums the feature rows of the
  nodes joined to `n` by an edge of class `c` — reading `n`'s ROW of the label table for the incoming half and its
  COLUMN for the outgoing half —, applies the class's weight matrix, adds the four classes up in order, lays the
  two halves side by side and adds a bias. The kernel holds one graph per grid point with its features transposed
  (a host transpose before the region), builds the same 0/1 class matrices, multiplies the transposed features
  by each matrix and by its transpose, applies the weight matrices on the left, accumulates from zero, stacks the two
  accumulators, transposes the stack and adds the bias.

  On the extended reals both are the one function `EdgeMessages.G` of the five argument arrays: the two programs
  differ in the order of the factors of each product, in which axis a sum runs over, and in layout — never in the
  order in which the four classes are added, and in no constant. Commutativity of the product is all the algebra there
  is, so the finiteness of the inputs is not used. The reference's side is `RefValue.ref_eq`, the body's block at an
  index `BodyValue.body_apply`, and the blocks put together over the sixteen grid points `RunValue.run`.

  The idealization rewrote no operation, so that claim is `True`; the three frames are the generated ones (the
  reference's is its generated run with the result dropped).
-/
import proofs.«114339_j73323681677623_2_alg».proof.Defs
import proofs.«114339_j73323681677623_2_alg».proof.Proof.Gen.Kernel
import proofs.«114339_j73323681677623_2_alg».proof.Proof.Gen.Kernel.Skeleton
import proofs.«114339_j73323681677623_2_alg».proof.Proof.Gen.Kernel.Launch
import proofs.«114339_j73323681677623_2_alg».proof.Proof.Gen.Kernel.Points
import proofs.«114339_j73323681677623_2_alg».proof.Proof.Gen.Kernel.Frame
import proofs.«114339_j73323681677623_2_alg».proof.Proof.Gen.KernelIdeal
import proofs.«114339_j73323681677623_2_alg».proof.Proof.Gen.KernelIdeal.Skeleton
import proofs.«114339_j73323681677623_2_alg».proof.Proof.Gen.KernelIdeal.Launch
import proofs.«114339_j73323681677623_2_alg».proof.Proof.Gen.KernelIdeal.Points
import proofs.«114339_j73323681677623_2_alg».proof.Proof.Gen.KernelIdeal.Frame
import proofs.«114339_j73323681677623_2_alg».proof.Proof.Gen.ReferenceIdeal
import proofs.«114339_j73323681677623_2_alg».proof.Proof.Gen.Pre_finite_inputs
import proofs.«114339_j73323681677623_2_alg».proof.Proof.Gen.KernelIdeal.Value
import proofs.«114339_j73323681677623_2_alg».proof.Proof.Gen.ReferenceIdeal.Run
import proofs.«114339_j73323681677623_2_alg».proof.Proof.Gen.ReferenceIdeal.Read
import proofs.«114339_j73323681677623_2_alg».proof.Proof.Spec
import proofs.«114339_j73323681677623_2_alg».proof.Proof.RefValue
import proofs.«114339_j73323681677623_2_alg».proof.Proof.KernelBody
import proofs.«114339_j73323681677623_2_alg».proof.Proof.KernelRun
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the result array `G` of those arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
